-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S800768x64 : Shape := ⟨2, ![800768, 64]⟩
abbrev S800768 : Shape := ⟨1, ![800768]⟩
abbrev S1x800768 : Shape := ⟨2, ![1, 800768]⟩
abbrev S1x64 : Shape := ⟨2, ![1, 64]⟩
abbrev S51200x64 : Shape := ⟨2, ![51200, 64]⟩
abbrev S2048x64 : Shape := ⟨2, ![2048, 64]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 70
  | .vmem => 9
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S800000x1, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x64, .f32⟩
  | .hbm, ⟨57, _⟩ => ⟨S800000x64, .f32⟩
  | .hbm, ⟨58, _⟩ => ⟨S800000x64, .bf16⟩
  | .hbm, ⟨59, _⟩ => ⟨S_, .i32⟩
  | .hbm, ⟨60, _⟩ => ⟨S_, .bf16⟩
  | .hbm, ⟨61, _⟩ => ⟨S800768x64, .bf16⟩
  | .hbm, ⟨62, _⟩ => ⟨S_, .i32⟩
  | .hbm, ⟨63, _⟩ => ⟨S_, .i32⟩
  | .hbm, ⟨64, _⟩ => ⟨S800768, .i32⟩
  | .hbm, ⟨65, _⟩ => ⟨S1x800768, .i32⟩
  | .hbm, ⟨66, _⟩ => ⟨S64x64, .bf16⟩
  | .hbm, ⟨67, _⟩ => ⟨S1x64, .f32⟩
  | .hbm, ⟨68, _⟩ => ⟨S51200x64, .f32⟩
  | .hbm, ⟨69, _⟩ => ⟨S50000x64, .f32⟩
  | .local _ .vmem, ⟨0, _⟩ => ⟨S2048x64, .bf16⟩
  | .local _ .vmem, ⟨1, _⟩ => ⟨S2048x64, .bf16⟩
  | .local _ .vmem, ⟨2, _⟩ => ⟨S1x2048, .i32⟩
  | .local _ .vmem, ⟨3, _⟩ => ⟨S1x2048, .i32⟩
  | .local _ .vmem, ⟨4, _⟩ => ⟨S64x64, .bf16⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_call1_v0 : Ref sig .tc := ⟨.hbm, 60, rfl⟩
abbrev main_v41 : Ref sig .tc := ⟨.hbm, 61, rfl⟩
abbrev main_c_11 : Ref sig .tc := ⟨.hbm, 62, rfl⟩
abbrev main_call2_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![25, 391], ![false, false]⟩

def k0_cond2 (i : grid0.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bitsLt_bf16_f32 : FTy.bits .bf16 < FTy.bits .f32
  pads_S800000x64_S800768x64_07680_000 : S800000x64.Pads (![0, 0] : Fin 2 → Nat) ![768, 0] ![0, 0] S800768x64
  h_S_ : 0 < S_.numel
  pads_S800000_S800768_07680 : S800000.Pads (![0] : Fin 1 → Nat) ![768] ![0] S800768
  shapeCasts_S800768_S1x800768 : S800768.ShapeCasts S1x800768
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  slices_S51200x64_S50000x64_0_0 : S51200x64.Slices ![0, 0] S50000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  dot_S2048x2048_S2048x64_S2048x64_1_0_0_1_n_n_wf : DotDims.WF S2048x2048 S2048x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S800768x64.size a
  hwx0_0 : ∀ i : grid0.Coords, EltTy.bits .bf16 = 32 ∨ (Rect.block (s := S800768x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x800768.size a
  hwx0_1 : ∀ i : grid0.Coords, EltTy.bits .i32 = 32 ∨ (Rect.block (s := S1x800768) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S51200x64.size a
  hwx0_4 : ∀ i : grid0.Coords, EltTy.bits .f32 = 32 ∨ (Rect.block (s := S51200x64) S2048x64.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v41) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S800000x1, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x64, .f32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Pieces.lean ====
/-
  What one run of the body leaves behind, case by case, as the body's computed blocks.

  The first edge block of a node block (case A) stores the zero block into the accumulator, reads it back and stores
  `zero + sel · msg`; a middle edge block (case B) stores `acc + sel · msg` over the accumulator `acc` the point before
  left; the last edge block (case C) does the same and then stores `max (acc' · W + b, 0)` of the accumulator `acc'` it
  has just written.  Each store covers its whole buffer, so what a buffer ends holding is its last store's block.
-/
import proofs.«109898_j51994874085832_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- A middle edge block leaves the accumulator at the accumulation step of what it found there. -/
theorem scratch_B (c : Dev nD) (i : grid0.Coords) (arg2 : Memref sig .tc .vmem S2048x64 .bf16) (harg2 : arg2.IsWhole) (arg3 : Memref sig .tc .vmem S1x2048 .i32) (harg3 : arg3.IsWhole) (arg4 : Memref sig .tc .vmem S64x64 .bf16) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : ¬cond0_1 i)
    (x0 : Vec F S2048x64 .bf16) (x1 : Vec F S1x2048 .i32) (x2 : Vec F S64x64 .bf16) (x3 : Vec F S1x64 .f32) (xs0 : Vec F S2048x64 .f32) :
    sout0_B_0 c i arg2 harg2 arg3 harg3 arg4 harg4 arg5 harg5 arg6 harg6 arg7 harg7 hc0 hc1 x0 x1 x2 x3 xs0 = k0_pay2 i x1 x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg7.read_unread,
    View.ld_unit_zero (S := S2048x64) hz, View.ld_unit_zero (S := S1x2048) hz]

/-- The first edge block leaves the accumulator at the accumulation step of the zero block. -/
theorem scratch_A (c : Dev nD) (i : grid0.Coords) (arg2 : Memref sig .tc .vmem S2048x64 .bf16) (harg2 : arg2.IsWhole) (arg3 : Memref sig .tc .vmem S1x2048 .i32) (harg3 : arg3.IsWhole) (arg4 : Memref sig .tc .vmem S64x64 .bf16) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : cond0_0 i) (hc1 : ¬cond0_1 i)
    (x0 : Vec F S2048x64 .bf16) (x1 : Vec F S1x2048 .i32) (x2 : Vec F S64x64 .bf16) (x3 : Vec F S1x64 .f32) :
    sout0_A_0 c i arg2 harg2 arg3 harg3 arg4 harg4 arg5 harg5 arg6 harg6 arg7 harg7 hc0 hc1 x0 x1 x2 x3 = k0_pay2 i x1 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x64) hz, View.readCov_unit_zero (S := S2048x64) _ hz]
  simp only [View.readAt_eq_ld, harg2.read_unread, harg3.read_unread,
    View.ld_unit_zero (S := S2048x64) hz, View.ld_unit_zero (S := S1x2048) hz]

/-- The last edge block leaves the accumulator at the accumulation step of what it found there, -/
theorem scratch_C (c : Dev nD) (i : grid0.Coords) (arg2 : Memref sig .tc .vmem S2048x64 .bf16) (harg2 : arg2.IsWhole) (arg3 : Memref sig .tc .vmem S1x2048 .i32) (harg3 : arg3.IsWhole) (arg4 : Memref sig .tc .vmem S64x64 .bf16) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x64 .bf16) (x1 : Vec F S1x2048 .i32) (x2 : Vec F S64x64 .bf16) (x3 : Vec F S1x64 .f32) (xs0 : Vec F S2048x64 .f32) :
    sout0_C_0 c i arg2 harg2 arg3 harg3 arg4 harg4 arg5 harg5 arg6 harg6 arg7 harg7 hc0 hc1 x0 x1 x2 x3 xs0 = k0_pay2 i x1 x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg7.read_unread,
    View.ld_unit_zero (S := S2048x64) hz, View.ld_unit_zero (S := S1x2048) hz]

/-- and the output block at the output step of that new accumulator, the weight block and the bias block. -/
theorem out_C (c : Dev nD) (i : grid0.Coords) (arg2 : Memref sig .tc .vmem S2048x64 .bf16) (harg2 : arg2.IsWhole) (arg3 : Memref sig .tc .vmem S1x2048 .i32) (harg3 : arg3.IsWhole) (arg4 : Memref sig .tc .vmem S64x64 .bf16) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole) (hc0 : ¬cond0_0 i) (hc1 : cond0_1 i)
    (x0 : Vec F S2048x64 .bf16) (x1 : Vec F S1x2048 .i32) (x2 : Vec F S64x64 .bf16) (x3 : Vec F S1x64 .f32) (xs0 : Vec F S2048x64 .f32) :
    out0_C_4 c i arg2 harg2 arg3 harg3 arg4 harg4 arg5 harg5 arg6 harg6 arg7 harg7 hc0 hc1 x0 x1 x2 x3 xs0 = k0_pay3 (k0_pay2 i x1 x0 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S2048x64) _ hz]
  simp only [View.readAt_eq_ld, harg2.read_unread, harg3.read_unread, harg4.read_unread, harg5.read_unread,
    harg7.read_unread, View.ld_unit_zero (S := S2048x64) hz, View.ld_unit_zero (S := S1x2048) hz,
    View.ld_unit_zero (S := S64x64) hz, View.ld_unit_zero (S := S1x64) hz]

end Cert.KernelIdeal.Pieces

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.EdgeSums.lean ====
/-
  Sums over the edges of a graph whose edge list is cut into equal blocks.

  A node's aggregate is the sum of the messages of the edges that point at it.  Written with a 0/1 selector it is a
  sum over ALL edges of selector times message, and that sum may be taken block by block, over a list padded at the
  end with edges whose message is zero: a padded edge contributes `selector * 0 = 0` whatever its target.  Only the
  commutative-monoid structure of the extended reals and `x * 0 = 0`, `1 * x = x`, `0 * x = 0` are used, so nothing
  here asks the messages to be finite.
-/
import Idealize.ShloMosaic.PureOps.Ideal
import Idealize.ShloMosaic.Lib.ValueIdx

noncomputable section

open scoped BigOperators
open Finset Idealize.ShloMosaic

namespace Cert.EdgeSums

/-- A sum over `T` consecutive blocks of width `K` is the sum over the first `T * K` positions. -/
theorem sum_blocks {M : Type*} [AddCommMonoid M] (F : ℕ → M) (K : ℕ) :
    ∀ T : ℕ, ∑ s ∈ range T, ∑ j ∈ range K, F (s * K + j) = ∑ e ∈ range (T * K), F e
  | 0 => by simp
  | T + 1 => by
    rw [Finset.sum_range_succ, sum_blocks F K T, Nat.succ_mul, Finset.sum_range_add]

/-- Terms that vanish from position `E` on do not contribute to a sum over a longer range. -/
theorem sum_range_zero_tail {M : Type*} [AddCommMonoid M] (F : ℕ → M) (E P : ℕ) (h : ∀ e, E ≤ e → F e = 0) :
    ∑ e ∈ range (E + P), F e = ∑ e ∈ range E, F e := by
  rw [Finset.sum_range_add, Finset.sum_eq_zero (fun x _ => h _ (Nat.le_add_right E x)), add_zero]

/-- A 0/1 selector times a value, summed over everything, is the sum of the values over the selected positions. -/
theorem sum_selector_mul {ι : Type*} [Fintype ι] (p : ι → Prop) [DecidablePred p] (f : ι → EReal) :
    ∑ e, (if p e then (1 : EReal) else 0) * f e = ∑ e ∈ univ.filter p, f e := by
  rw [Finset.sum_filter]
  refine Finset.sum_congr rfl fun e _ => ?_
  split_ifs <;> simp

/-- The aggregate, block by block.  `cp`, `mp` are the padded target and message lists read at a flat position; on
    the first `E` positions they are the true lists `col`, `msg`, and from `E` on the message is zero.  The sum over `T`
    blocks of width `K` (`E ≤ T * K`) of selector-at-`w` times message is the sum of the messages of the true edges
    whose target word is `w`. -/
theorem blocks_selector_sum (T K E : ℕ) (hE : E ≤ T * K) (cp : ℕ → BitVec 32) (mp : ℕ → EReal)
    (col : Fin E → BitVec 32) (msg : Fin E → EReal)
    (hc : ∀ e : Fin E, cp e.val = col e) (hm : ∀ e : Fin E, mp e.val = msg e) (hpad : ∀ e, E ≤ e → mp e = 0)
    (w : BitVec 32) :
    ∑ s ∈ range T, ∑ j : Fin K, (if w = cp (s * K + j.val) then (1 : EReal) else 0) * mp (s * K + j.val)
      = ∑ e ∈ univ.filter (fun e : Fin E => w = col e), msg e := by
  have h1 : ∀ s, ∑ j : Fin K, (if w = cp (s * K + j.val) then (1 : EReal) else 0) * mp (s * K + j.val)
      = ∑ j ∈ range K, (fun e => (if w = cp e then (1 : EReal) else 0) * mp e) (s * K + j) := fun s =>
    (Finset.sum_range (fun j => (fun e => (if w = cp e then (1 : EReal) else 0) * mp e) (s * K + j))).symm
  rw [Finset.sum_congr rfl (fun s _ => h1 s), sum_blocks (fun e => (if w = cp e then (1 : EReal) else 0) * mp e) K T]
  obtain ⟨P, hP⟩ := Nat.exists_eq_add_of_le hE
  rw [hP, sum_range_zero_tail _ E P (fun e he => by rw [hpad e he, mul_zero]), Finset.sum_range, ← sum_selector_mul]
  refine Finset.sum_congr rfl fun e _ => ?_
  show (if w = cp e.val then (1 : EReal) else 0) * mp e.val = _
  rw [hc e, hm e]

/-- A 32-bit word is the word of a natural number below `2 ^ 31` exactly when, read signed, it is that number. -/
theorem word_eq_iff_toInt (n : ℕ) (hn : n < 2 ^ 31) (v : BitVec 32) :
    BitVec.ofNat 32 n = v ↔ v.toInt = (n : Int) := by
  constructor
  · rintro rfl
    rw [BitVec.toInt_eq_toNat_cond, BitVec.toNat_ofNat]
    have : n % 2 ^ 32 = n := Nat.mod_eq_of_lt (by omega)
    rw [this]
    split <;> omega
  · intro h
    apply BitVec.eq_of_toNat_eq
    rw [BitVec.toNat_ofNat]
    rw [BitVec.toInt_eq_toNat_cond] at h
    have hv := v.isLt
    split at h <;> omega

/-- The 0/1 entry a vector unit makes of an equality test of two words — the test's bit widened to 32 bits, read
    signed as a real — is `1` where the words agree and `0` elsewhere. -/
theorem selector_entry (a b : BitVec 32) :
    ((((IntOp.cmpi .eq a b).setWidth 32).toInt : ℝ) : EReal) = if a = b then 1 else 0 := by
  by_cases h : a = b
  · subst h
    simp [IntOp.cmpi]
  · have hb : (a == b) = false := beq_eq_false_iff_ne.mpr h
    simp [IntOp.cmpi, hb, h]

end Cert.EdgeSums

end
-- ==== Proof.BodyAtIndex.lean ====
/-
  The kernel body's two computed blocks, read at an entry, at the ideal values.

  At a grid point (node block `nb`, edge block `eb`) the body holds a [2048, 64] accumulator `acc`, the edge block's
  2048 target words `col` and its [2048, 64] messages `msg`.  It forms the 0/1 matrix `sel (r, j) = [node (nb, r) = col j]`
  and stores `acc + sel · msg`: entry `(r, k)` becomes `acc (r, k) + Σ_j sel (r, j) * msg (j, k)`.  At the last edge
  block it also stores `max (acc · W + b, 0)`: entry `(r, c)` is `max (Σ_k acc (r, k) * W (k, c) + b c) 0`.  Changes of
  float format are the identity on the extended reals, so no rounding appears.
-/
import proofs.«109898_j51994874085832_1_alg».proof.Proof.Gen.KernelIdeal.Skeleton
import proofs.«109898_j51994874085832_1_alg».proof.Proof.LibDenseLayers
import proofs.«109898_j51994874085832_1_alg».proof.Proof.EdgeSums
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The 32-bit word of the node that row `r` of node block `nb` stands for, as the body computes it:
    `nb * 2048 + r` in wrap-around arithmetic. -/
def nodeWord (nb : ℕ) (r : Fin 2048) : BitVec 32 :=
  IntOp.addi (Scalar.muli (BitVec.ofNat 32 nb) 2048#32) (BitVec.ofNat 32 r.val)

/-- Nothing wraps for the 25 node blocks: the word is that of the natural number `nb * 2048 + r`. -/
theorem nodeWord_eq (nb : ℕ) (hnb : nb < 25) (r : Fin 2048) :
    nodeWord nb r = BitVec.ofNat 32 (nb * 2048 + r.val) := by
  unfold nodeWord
  apply BitVec.eq_of_toNat_eq
  show (BitVec.ofNat 32 nb * 2048#32 + BitVec.ofNat 32 r.val).toNat = _
  have hr := r.isLt
  simp only [BitVec.toNat_add, BitVec.toNat_mul, BitVec.toNat_ofNat]
  omega

/-- Two 0/1 selectors agree when the words they compare agree. -/
theorem selector_congr {a a' b b' : BitVec 32} (ha : a = a') (hb : b = b') :
    (if a = b then (1 : EReal) else 0) = if a' = b' then 1 else 0 := by
  subst ha hb; rfl

/-- The accumulation step at `(r, k)`: the accumulator's entry plus the sum over the edge block's positions `j` of the
    selector `[node (nb, r) = col j]` times the message entry `(j, k)`. -/
theorem pay2_apply (i : grid0.Coords) (v7 : Vec Ideal S1x2048 .i32) (v15 : Vec Ideal S2048x64 .bf16)
    (v17 : Vec Ideal S2048x64 .f32) (r : Fin 2048) (k : Fin 64) :
    k0_pay2 (F := Ideal) i v7 v15 v17 (ix2 r k)
      = v17 (ix2 r k) + ∑ j : Fin 2048,
          (if nodeWord (i 0).val r = v7 (ix2 (0 : Fin 1) j) then (1 : EReal) else 0) * v15 (ix2 j k) := by
  unfold k0_pay2
  simp only [shapeCast_self]
  refine congrArg (v17 (ix2 r k) + ·) ?_
  refine (DenseLayers.matmul_rowcol_zero_apply (φ₁ := .bf16) (φ₂ := .bf16) _ none _ _ r k).trans ?_
  refine Finset.sum_congr rfl fun j _ => ?_
  refine congrArg (· * v15 (ix2 j k)) ?_
  refine (EdgeSums.selector_entry _ _).trans ?_
  refine selector_congr ?_ ?_
  · refine (DenseLayers.broadcastTo_column_apply _ _ r j).trans ?_
    unfold nodeWord
    exact congrArg (IntOp.addi _) (iota_single_apply .tc S2048x1 32 0 _ (ix2 r (0 : Fin 1)))
  · exact broadcastTo_1b_ab_apply v7 _ r j

/-- The output step at `(r, c)`: the accumulator's row `r` times the weight's column `c`, plus the bias entry `c`,
    cut off below at zero. -/
theorem pay3_apply (v26 : Vec Ideal S2048x64 .f32) (v28 : Vec Ideal S64x64 .bf16) (v31 : Vec Ideal S1x64 .f32)
    (r : Fin 2048) (c : Fin 64) :
    k0_pay3 (F := Ideal) v26 v28 v31 (ix2 r c)
      = max (∑ k : Fin 64, v26 (ix2 r k) * v28 (ix2 k c) + v31 (ix2 (0 : Fin 1) c)) 0 := by
  unfold k0_pay3
  simp only [shapeCast_self]
  refine congrArg₂ max (congrArg₂ (· + ·) ?_ ?_) ?_
  · exact (DenseLayers.matmul_rowcol_zero_apply (φ₁ := .bf16) (φ₂ := .bf16) _ none _ _ r c).trans (Finset.sum_congr rfl fun k _ => rfl)
  · exact broadcastTo_1b_ab_apply v31 _ r c
  · exact Ideal.ofBits_zero_f32

end Cert.KernelIdeal.Body

end
-- ==== Proof.Blocks.lean ====
/-
  The windows' blocks, read at an entry of the arrays the region finds.

  The grid is 25 node blocks by 391 edge blocks, point `t` being node block `t / 391`, edge block `t % 391`.  At point
  `t` the message window holds rows `(t % 391) * 2048 …` of the padded message list, the target window holds the same
  stretch of the padded target row, the weight and the bias windows hold their whole arrays, and the output window is
  rows `(t / 391) * 2048 …` of the padded result.
-/
import proofs.«109898_j51994874085832_1_alg».proof.Proof.Gen.KernelIdeal.Frame.Runs
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps and the grid's coordinates, decided once over the 9775 points. -/
theorem idx_facts : ∀ t : Fin cfg0.N,
    win0_0.index t (0 : Fin 2) = t.val % 391 ∧ win0_0.index t (1 : Fin 2) = 0
    ∧ win0_1.index t (0 : Fin 2) = 0 ∧ win0_1.index t (1 : Fin 2) = t.val % 391
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 391 ∧ win0_4.index t (1 : Fin 2) = 0
    ∧ ((grid0.coords t) 0).val = t.val / 391 ∧ ((grid0.coords t) 1).val = t.val % 391 :=
  (by decide +kernel : ∀ t : Fin grid0.N, _)

/-- The message block at point `t`, entry `(j, k)`: row `(t % 391) * 2048 + j` of the padded message list. -/
theorem iblk0_apply (c : Dev nD) (t : Fin cfg0.N) (j : Fin 2048) (k : Fin 64)
    (h : (t.val % 391) * 2048 + j.val < 800768) :
    (iblk m c 0 t : S2048x64.Idx → Elt F .bf16) (ix2 j k)
      = (V m c main_v41 : S800768x64.Idx → Elt F .bf16) (ix2 ⟨(t.val % 391) * 2048 + j.val, h⟩ k) := by
  obtain ⟨e0, e1, -⟩ := idx_facts t
  unfold iblk
  rw [View.read_apply]
  show V m c main_v41 _ = V m c main_v41 _
  congr 1
  funext a; apply Fin.ext
  match a with
  | ⟨0, _⟩ => show win0_0.index t (0 : Fin 2) * 2048 + 1 * j.val = (t.val % 391) * 2048 + j.val; rw [e0]; omega
  | ⟨1, _⟩ => show win0_0.index t (1 : Fin 2) * 64 + 1 * k.val = k.val; rw [e1]; omega

/-- The target block at point `t`, entry `(0, j)`: position `(t % 391) * 2048 + j` of the padded target row. -/
theorem iblk1_apply (c : Dev nD) (t : Fin cfg0.N) (j : Fin 2048)
    (h : (t.val % 391) * 2048 + j.val < 800768) :
    (iblk m c 1 t : S1x2048.Idx → Elt F .i32) (ix2 (0 : Fin 1) j)
      = (V m c main_v43 : S1x800768.Idx → Elt F .i32) (ix2 (0 : Fin 1) ⟨(t.val % 391) * 2048 + j.val, h⟩) := by
  obtain ⟨-, -, e0, e1, -⟩ := idx_facts t
  unfold iblk
  rw [View.read_apply]
  show V m c main_v43 _ = V m c main_v43 _
  congr 1
  funext a; apply Fin.ext
  match a with
  | ⟨0, _⟩ => show win0_1.index t (0 : Fin 2) * 1 + 1 * 0 = 0; rw [e0]
  | ⟨1, _⟩ => show win0_1.index t (1 : Fin 2) * 2048 + 1 * j.val = (t.val % 391) * 2048 + j.val; rw [e1]; omega

/-- The weight block at any point is the whole weight array. -/
theorem iblk2_eq (c : Dev nD) (t : Fin cfg0.N) :
    (iblk m c 2 t : S64x64.Idx → Elt F .bf16) = V m c main_v44 := by
  obtain ⟨-, -, -, -, e0, e1, -⟩ := idx_facts t
  funext y
  unfold iblk
  rw [View.read_apply]
  show V m c main_v44 _ = V m c main_v44 y
  congr 1
  funext a; apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The bias block at any point is the whole bias row. -/
theorem iblk3_eq (c : Dev nD) (t : Fin cfg0.N) :
    (iblk m c 3 t : S1x64.Idx → Elt F .f32) = V m c main_v45 := by
  obtain ⟨-, -, -, -, -, -, e0, e1, -⟩ := idx_facts t
  funext y
  unfold iblk
  rw [View.read_apply]
  show V m c main_v45 _ = V m c main_v45 y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

end Cert.KernelIdeal.Blocks

end
-- ==== Proof.Accumulate.lean ====
/-
  The accumulator over a node block's run of edge blocks, and the output block its last point stores.

  Fix a node block `q`.  Its points are `391 q, …, 391 q + 390`, one per edge block.  The first resets the accumulator
  and adds its edge block's contribution; each later one adds its own.  The contribution of point `n` to entry `(r, k)`
  is `Σ_j [node (q, r) = target (s · 2048 + j)] * message (s · 2048 + j, k)` with `s = n % 391` — the padded target and
  message lists read at a flat position.  So after the last point the accumulator is `0` plus the sum of the 391
  contributions, and the output block stored there is `max (acc · W + b, 0)` of that accumulator.
-/
import proofs.«109898_j51994874085832_1_alg».proof.Proof.Gen.KernelIdeal.Frame
import proofs.«109898_j51994874085832_1_alg».proof.Proof.Pieces
import proofs.«109898_j51994874085832_1_alg».proof.Proof.BodyAtIndex
import proofs.«109898_j51994874085832_1_alg».proof.Proof.Blocks
import Idealize.ShloMosaic.Lib.Pipeline.Value

set_option maxRecDepth 16384

noncomputable section

open scoped BigOperators

namespace Cert.KernelIdeal.Acc

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The padded target row the region finds, read at a flat position (a dummy word past its end). -/
def cpN (e : ℕ) : BitVec 32 :=
  if h : e < 800768 then (V m c main_v43 : S1x800768.Idx → BitVec 32) (ix2 (0 : Fin 1) ⟨e, h⟩) else 0

/-- Column `k` of the padded message list the region finds, read at a flat position (zero past its end). -/
def mpN (k : Fin 64) (e : ℕ) : EReal :=
  if h : e < 800768 then (V m c main_v41 : S800768x64.Idx → Ideal .bf16) (ix2 ⟨e, h⟩ k) else 0

/-- What point `n` adds to the accumulator's entry `i`: its edge block's selected messages. -/
def addend (n : ℕ) (i : S2048x64.Idx) : EReal :=
  ∑ j : Fin 2048, (if Body.nodeWord (n / 391) (i 0) = cpN m c ((n % 391) * 2048 + j.val) then (1 : EReal) else 0)
    * mpN m c (i 1) ((n % 391) * 2048 + j.val)

/-- The accumulator a resetting point leaves. -/
def aStart (t : Fin cfg0.N) : Vec Ideal S2048x64 .f32 :=
  k0_pay2 (grid0.coords t) (iblk m c 1 t) (iblk m c 0 t) (k0_pay1 (F := Ideal))

/-- The accumulator a later point leaves over `acc`. -/
def aStep (t : Fin cfg0.N) (acc : Vec Ideal S2048x64 .f32) : Vec Ideal S2048x64 .f32 :=
  k0_pay2 (grid0.coords t) (iblk m c 1 t) (iblk m c 0 t) acc

set_option maxHeartbeats 4000000 in
/-- At the first point of a node block the accumulator is the reset value. -/
theorem scratch_reset' (t : Fin cfg0.N) (h0 : t.val % 391 = 0) : (outsAt0 m c t.val t.isLt).2 = aStart m c t := by
  have h1 : ¬t.val % 391 = 390 := by omega
  rw [outsAt0_A m c t h0 h1]
  unfold aStart
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh)) (iblk m c 0 t) (iblk m c 1 t) (iblk m c 2 t) (iblk m c 3 t)

theorem scratch_reset (n : ℕ) (h : n < cfg0.N) (h0 : n % 391 = 0) : (outsAt0 m c n h).2 = aStart m c ⟨n, h⟩ :=
  scratch_reset' m c ⟨n, h⟩ h0

set_option maxHeartbeats 4000000 in
/-- At every other point it is the step over what the point before left. -/
theorem scratch_step' (t : Fin cfg0.N) (h0 : ¬t.val % 391 = 0) :
    (outsAt0 m c t.val t.isLt).2
      = aStep m c t ((outsAt0 m c (t.val - 1) (Nat.lt_of_le_of_lt (Nat.sub_le _ _) t.isLt)).2) := by
  by_cases h1 : t.val % 391 = 390
  · rw [outsAt0_C m c t h0 h1]
    unfold aStep
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    unfold aStep
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (iblk m c 0 t) (iblk m c 1 t) (iblk m c 2 t) (iblk m c 3 t) (outsAt0 m c (t.val - 1) (Nat.lt_of_le_of_lt (Nat.sub_le _ _) t.isLt)).2

theorem scratch_step (n : ℕ) (h : n + 1 < cfg0.N) (h0 : ¬(n + 1) % 391 = 0) :
    (outsAt0 m c (n + 1) h).2 = aStep m c ⟨n + 1, h⟩ ((outsAt0 m c n (Nat.lt_of_succ_lt h)).2) :=
  scratch_step' m c ⟨n + 1, h⟩ h0

/-- A step adds the point's contribution, entry by entry. -/
theorem aStep_apply (t : Fin cfg0.N) (acc : Vec Ideal S2048x64 .f32) (i : S2048x64.Idx) :
    aStep m c t acc i = acc i + addend m c t.val i := by
  have hN : t.val < 9775 := lt_of_lt_of_eq t.isLt N_0
  obtain ⟨-, -, -, -, -, -, -, -, -, -, g0, g1⟩ := Blocks.idx_facts t
  obtain ⟨r, k, rfl⟩ : ∃ (r : Fin 2048) (k : Fin 64), i = ix2 r k := ⟨i 0, i 1, eq_ix2 i⟩
  unfold aStep
  refine (Body.pay2_apply (grid0.coords t) (iblk m c 1 t) (iblk m c 0 t) acc r k).trans ?_
  unfold addend
  refine congrArg (acc (ix2 r k) + ·) (Finset.sum_congr rfl fun j _ => ?_)
  have hb : (t.val % 391) * 2048 + j.val < 800768 := by have := j.isLt; omega
  rw [Blocks.iblk1_apply m c t j hb, Blocks.iblk0_apply m c t j k hb, g0]
  unfold cpN mpN
  rw [dif_pos hb, dif_pos hb]

/-- The zero block is zero at every entry. -/
theorem pay1_apply (i : S2048x64.Idx) : k0_pay1 (F := Ideal) i = 0 := by
  unfold k0_pay1
  simp only [shapeCast_self]
  exact Ideal.ofBits_zero_f32

/-- A reset leaves zero plus the point's contribution. -/
theorem aStart_apply (t : Fin cfg0.N) (i : S2048x64.Idx) :
    aStart m c t i = (fun _ => (0 : EReal)) i + addend m c t.val i := by
  show aStep m c t (k0_pay1 (F := Ideal)) i = _
  rw [aStep_apply, pay1_apply]

/-- After the last edge block of a node block the accumulator is zero plus the 391 contributions of the block's points. -/
theorem scratch_last (t : ℕ) (h : t < cfg0.N) (h390 : t % 391 = 390) (i : S2048x64.Idx) :
    (outsAt0 m c t h).2 i = 0 + ∑ s ∈ Finset.range 391, addend m c (391 * (t / 391) + s) i := by
  have hb : 391 * (t / 391) + t % 391 < cfg0.N := by rw [Nat.div_add_mod]; exact h
  rw [Pipeline.eq_accAt_of_mod (fun n h => (outsAt0 m c n h).2) 391 (fun n h => aStart m c ⟨n, h⟩)
    (fun n h acc => aStep m c ⟨n, h⟩ acc) (scratch_reset m c) (scratch_step m c) (by decide) t h hb]
  have e := Pipeline.accAt_add_apply (fun n h => aStart m c ⟨n, h⟩) (fun n h acc => aStep m c ⟨n, h⟩ acc)
    (fun _ => (0 : EReal)) (addend m c) (391 * (t / 391)) 390
    (fun h i => aStart_apply m c ⟨_, h⟩ i) (fun n h acc i _ _ => aStep_apply m c ⟨n, h⟩ acc i) (t % 391) (by omega) hb i
  rw [e, h390]

set_option maxHeartbeats 4000000 in
/-- The output block a node block's last point stores: the output step of the accumulator it has just written, the
    weight block and the bias block. -/
theorem out_last (t : Fin cfg0.N) (h390 : t.val % 391 = 390) :
    (outsAt0 m c t.val t.isLt).1 = k0_pay3 ((outsAt0 m c t.val t.isLt).2) (iblk m c 2 t) (iblk m c 3 t) := by
  have h0 : ¬t.val % 391 = 0 := by omega
  rw [outsAt0_C m c t h0 h390]
  dsimp only
  refine (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h390) (iblk m c 0 t) (iblk m c 1 t) (iblk m c 2 t) (iblk m c 3 t) (outsAt0 m c (t.val - 1) (Nat.lt_of_le_of_lt (Nat.sub_le _ _) t.isLt)).2).trans ?_
  exact congrArg (fun a => k0_pay3 a (iblk m c 2 t) (iblk m c 3 t))
    (Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h390) (iblk m c 0 t) (iblk m c 1 t) (iblk m c 2 t) (iblk m c 3 t) (outsAt0 m c (t.val - 1) (Nat.lt_of_le_of_lt (Nat.sub_le _ _) t.isLt)).2).symm

end Cert.KernelIdeal.Acc

end
-- ==== Proof.KernelOut.lean ====
/-
  The kernel's result array, as one function of the arrays the region finds.

  Row `n = 2048 q + r` of the padded [51200, 64] result is written once, by the last point of node block `q`, and is
  `max (Σ_k agg (n, k) * W (k, c) + b c, 0)`, where `agg (n, k)` is `0` plus the sum over the 391 edge blocks `s` and
  the 2048 positions `j` of `[node n = target (2048 s + j)] * message (2048 s + j, k)`.  The 25 last points' blocks
  tile the array; the host operation after the region keeps the first 50000 rows.
-/
import proofs.«109898_j51994874085832_1_alg».proof.Proof.Accumulate
import Idealize.ShloMosaic.Lib.Pipeline.Value
import Idealize.ShloMosaic.Lib.StableHlo.Run

noncomputable section

open scoped BigOperators

namespace Cert.KernelIdeal.Out

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (c : Dev nD)

/-- The aggregate of node `n` at feature `k`, as the kernel forms it: zero plus, edge block by edge block, the selected
    messages of the padded lists. -/
def aggK (n : ℕ) (k : Fin 64) : EReal :=
  0 + ∑ s ∈ Finset.range 391, ∑ j : Fin 2048,
    (if Body.nodeWord (n / 2048) ⟨n % 2048, Nat.mod_lt _ (by decide)⟩ = Acc.cpN m c (s * 2048 + j.val) then (1 : EReal) else 0)
      * Acc.mpN m c k (s * 2048 + j.val)

/-- The result at node `n`, output feature `c'`. -/
def gOut (n : ℕ) (c' : Fin 64) : EReal :=
  max (∑ k : Fin 64, aggK m c n k * (V m c main_v44 : S64x64.Idx → Ideal .bf16) (ix2 k c')
    + (V m c main_v45 : S1x64.Idx → Ideal .f32) (ix2 (0 : Fin 1) c')) 0

/-- The whole padded result array. -/
def Gpad : Buf (Elt Ideal) ((c : Thread nD τ).loc main_v46) := fun i => gOut m c (i 0).val (i 1)

/-- The output block of a node block's last point, entry `(r, c')`: the result at node `2048 q + r`. -/
theorem out_entry (t : Fin cfg0.N) (h390 : t.val % 391 = 390) (r : Fin 2048) (c' : Fin 64) :
    (outsAt0 m c t.val t.isLt).1 (ix2 r c') = gOut m c ((t.val / 391) * 2048 + r.val) c' := by
  have hN : t.val < 9775 := lt_of_lt_of_eq t.isLt N_0
  have hr := r.isLt
  rw [Acc.out_last m c t h390]
  refine (Body.pay3_apply ((outsAt0 m c t.val t.isLt).2) (iblk m c 2 t) (iblk m c 3 t) r c').trans ?_
  unfold gOut
  rw [Blocks.iblk2_eq m c t, Blocks.iblk3_eq m c t]
  refine congrArg₂ max (congrArg₂ (· + ·) (Finset.sum_congr rfl fun k _ => ?_) rfl) rfl
  refine congrArg (· * (V m c main_v44 : S64x64.Idx → Ideal .bf16) (ix2 k c')) ?_
  rw [Acc.scratch_last m c t.val t.isLt h390 (ix2 r k)]
  unfold aggK Acc.addend
  refine congrArg (0 + ·) (Finset.sum_congr rfl fun s hs => ?_)
  have hs' : s < 391 := Finset.mem_range.mp hs
  have e1 : (391 * (t.val / 391) + s) / 391 = t.val / 391 := by omega
  have e2 : (391 * (t.val / 391) + s) % 391 = s := by omega
  have e3 : ((t.val / 391) * 2048 + r.val) / 2048 = t.val / 391 := by omega
  have e4 : ((t.val / 391) * 2048 + r.val) % 2048 = r.val := by omega
  rw [e1, e2]
  refine Finset.sum_congr rfl fun j _ => ?_
  have hw : Body.nodeWord (t.val / 391) ((ix2 r k : S2048x64.Idx) 0)
      = Body.nodeWord (((t.val / 391) * 2048 + r.val) / 2048)
          ⟨((t.val / 391) * 2048 + r.val) % 2048, Nat.mod_lt _ (by decide)⟩ := by
    rw [e3]
    exact congrArg (Body.nodeWord (t.val / 391)) (Fin.ext e4.symm)
  rw [hw]

/-- The same at an entry `y` of the block and the array index `i` it lands on. -/
theorem out_entry' (t : Fin cfg0.N) (h390 : t.val % 391 = 390) (y : S2048x64.Idx) (i : S51200x64.Idx)
    (h0 : (i 0).val = (t.val / 391) * 2048 + (y 0).val) (h1 : (i 1).val = (y 1).val) :
    (outsAt0 m c t.val t.isLt).1 y = Gpad m c i := by
  obtain ⟨r, c', rfl⟩ : ∃ (r : Fin 2048) (c' : Fin 64), y = ix2 r c' := ⟨y 0, y 1, eq_ix2 y⟩
  rw [out_entry m c t h390 r c']
  show _ = gOut m c (i 0).val (i 1)
  have e1 : (i 1 : Fin 64) = c' := Fin.ext h1
  rw [h0, e1]

/-- What a flushing point writes back is its block of the padded result. -/
theorem flushed_eq (t : Fin cfg0.N) (hf : (cfg0.win 4).flush t = true) :
    (dats m 0 c).flushed 4 t = ((cfg0.win 4).blk t).view.read (Elt Ideal) (Gpad m c) := by
  have h390 : t.val % 391 = 390 := (flush0_4 t).mp hf
  obtain ⟨-, -, -, -, -, -, -, -, e0, e1, -, -⟩ := Blocks.idx_facts t
  show (cfg0.win 4).cut (grid0.coords t) ((dats m 0 c).after 4 t) = _
  rw [after0_4]
  funext y
  show (outsAt0 m c t.val t.isLt).1 y = Gpad m c (((cfg0.win 4).blk t).view.emb y)
  refine out_entry' m c t h390 y _ ?_ ?_
  · show win0_4.index t (0 : Fin 2) * 2048 + 1 * (y 0).val = (t.val / 391) * 2048 + (y 0).val
    rw [e0]; omega
  · show win0_4.index t (1 : Fin 2) * 64 + 1 * (y 1).val = (y 1).val
    rw [e1]; omega

/-- Every index of the padded result lies in the block of its node block's last point. -/
theorem cover (i : S51200x64.Idx) :
    ∃ t : Fin cfg0.N, (cfg0.win 4).flush t = true ∧ i ∈ ((cfg0.win 4).blk t).view.set := by
  have hi0 : (i 0).val < 51200 := (i 0).isLt
  have hi1 : (i 1).val < 64 := (i 1).isLt
  have hN : cfg0.N = 9775 := N_0
  have htn : 391 * ((i 0).val / 2048) + 390 < cfg0.N := by rw [hN]; omega
  refine ⟨⟨391 * ((i 0).val / 2048) + 390, htn⟩, (flush0_4 _).mpr (by show (391 * ((i 0).val / 2048) + 390) % 391 = 390; omega), ?_⟩
  obtain ⟨-, -, -, -, -, -, -, -, e0, e1, -, -⟩ := Blocks.idx_facts ⟨391 * ((i 0).val / 2048) + 390, htn⟩
  show i ∈ ((View.whole main_v46).slice (win0_4.rect ⟨391 * ((i 0).val / 2048) + 390, htn⟩)).set
  rw [View.set_slice_whole, Rect.mem_set_unit]
  intro a
  match a with
  | ⟨0, _⟩ =>
    show win0_4.index ⟨391 * ((i 0).val / 2048) + 390, htn⟩ (0 : Fin 2) * 2048 ≤ (i 0).val
      ∧ (i 0).val < win0_4.index ⟨391 * ((i 0).val / 2048) + 390, htn⟩ (0 : Fin 2) * 2048 + 2048
    rw [e0]
    show (391 * ((i 0).val / 2048) + 390) / 391 * 2048 ≤ (i 0).val ∧ (i 0).val < (391 * ((i 0).val / 2048) + 390) / 391 * 2048 + 2048
    omega
  | ⟨1, _⟩ =>
    show win0_4.index ⟨391 * ((i 0).val / 2048) + 390, htn⟩ (1 : Fin 2) * 64 ≤ (i 1).val
      ∧ (i 1).val < win0_4.index ⟨391 * ((i 0).val / 2048) + 390, htn⟩ (1 : Fin 2) * 64 + 64
    rw [e1]; omega

/-- So the padded result array ends holding `Gpad`. -/
theorem final : (dats m 0 c).arrAt 4 cfg0.N = Gpad m c :=
  (dats m 0 c).arrAt_eq_of_cover 4 (Gpad m c) (flushed_eq m c) cover

/-- The kernel's result: the first 50000 rows of the padded result. -/
abbrev result : Buf (Elt Ideal) ((c : Thread nD τ).loc main_v47) :=
  extractStridedSlice S50000x64 ![0, 0] (Gpad m c) slices_S51200x64_S50000x64_0_0

/-- The host operation after the region reads the padded result the region left. -/
theorem tail_eq : Pipeline.afterTail₀ cfgs (dats m) 0 (V0 m) [hostOps1] c main_v47 = result m c := by
  unfold Pipeline.afterTail₀
  show StableHlo.after hostOps1 _ (Proc.devRef .tc main_v47) = _
  after_results
  refine congrArg (fun (X : S51200x64.Idx → Ideal .f32) => extractStridedSlice S50000x64 ![0, 0] X slices_S51200x64_S50000x64_0_0) ?_
  exact (Pipeline.withArrays_arr spec0 launch0.win.arr_inj c (V0 m c) (fun w => (dats m 0 c).arrAt w cfg0.N) 4).trans
    (final m c)

end Cert.KernelIdeal.Out

namespace Cert.KernelIdeal.Out

open Idealize.ShloMosaic Idealize.ShloMosaic.TcCoe Idealize.SL.Sem
open Cert.KernelIdeal Cert.KernelIdeal.Gen

/-- The kernel's run, read: every weakly fair execution ends with the result buffer at `result` and the arguments as
    launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v47 (Pipeline.mem_restRefs_of main_v47 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Out

end
-- ==== Proof.EntryArrays.lean ====
/-
  The four arrays the region finds, as the host operations before it leave them.

  The host operations before the region fall into a long first part — it ends with the [800000, 64] array of edge
  messages in its 16-bit format (`%40`), having also left the 800000 target words (`%3`) and the integer zero
  (`%c_10`) — and a short second part that only re-lays: it pads the messages below with 768 rows of the number zero,
  pads the target words with 768 words `-1` and lays them out as one row, changes the weight argument's format, and
  lays the bias argument out as one row.  `W` names the contents after the first part; the four operand arrays are
  read off the second part over `W`.
-/
import proofs.«109898_j51994874085832_1_alg».proof.Proof.Gen.KernelIdeal.Frame.Runs
import Idealize.ShloMosaic.Lib.StableHlo.Run
import Idealize.ShloMosaic.Lib.Pipeline.Frame

noncomputable section

namespace Cert.KernelIdeal.Entry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The buffers' contents after the first part of the host operations. -/
def W (c : Dev nD) : Valuation τ sig (Elt F) :=
  StableHlo.after (hostOps0 ++ (hostOps0_1 ++ hostOps0_2)) (fun b => m (c, b))

/-- What the region finds is the second part run from there. -/
theorem V0_eq (c : Dev nD) :
    V0 m c = StableHlo.after (hostOps0_3 ++ (hostOps0_4 ++ (hostOps0_5 ++ hostOps0_6))) (W m c) := by
  unfold W
  rw [← StableHlo.after_append]
  show StableHlo.after (List.flatten [hostOps0, hostOps0_1, hostOps0_2, hostOps0_3, hostOps0_4, hostOps0_5, hostOps0_6]) _ = _
  congr 1

set_option maxRecDepth 8192 in
/-- The message operand: the 16-bit messages padded below with 768 rows of the integer zero made a number. -/
theorem V_v41 (c : Dev nD) : (V m c main_v41 : S800768x64.Idx → F .bf16)
    = pad S800768x64 ![0, 0] ![768, 0] ![0, 0] (W m c (Proc.devRef .tc main_v40) : S800000x64.Idx → F .bf16)
        (sitofp (F := F) .bf16 (W m c (Proc.devRef .tc main_c_10) : S_.Idx → BitVec 32))
        pads_S800000x64_S800768x64_07680_000 h_S_ := by
  show V0 m c (Proc.devRef .tc main_v41) = _
  rw [V0_eq]
  generalize W m c = X
  simp only [hostOps0_3, hostOps0_4, hostOps0_5, hostOps0_6, List.cons_append, List.nil_append]
  after_results
  simp only [cast_eq]

set_option maxRecDepth 8192 in
/-- The target operand: the target words padded with 768 words `-1`, as one row. -/
theorem V_v43 (c : Dev nD) : (V m c main_v43 : S1x800768.Idx → BitVec 32)
    = shapeCast S1x800768 (pad S800768 ![0] ![768] ![0] (W m c (Proc.devRef .tc main_v3) : S800000.Idx → BitVec 32)
        (constantI S_ 32 4294967295#32) pads_S800000_S800768_07680 h_S_) shapeCasts_S800768_S1x800768 := by
  show V0 m c (Proc.devRef .tc main_v43) = _
  rw [V0_eq]
  generalize W m c = X
  simp only [hostOps0_3, hostOps0_4, hostOps0_5, hostOps0_6, List.cons_append, List.nil_append]
  after_results
  simp only [cast_eq]
  rfl

set_option maxRecDepth 8192 in
/-- The weight operand: the weight as the first part left it, format changed. -/
theorem V_v44 (c : Dev nD) : (V m c main_v44 : S64x64.Idx → F .bf16)
    = truncf .bf16 (W m c (Proc.devRef .tc main_arg2) : S64x64.Idx → F .f32) bitsLt_bf16_f32 := by
  show V0 m c (Proc.devRef .tc main_v44) = _
  rw [V0_eq]
  generalize W m c = X
  simp only [hostOps0_3, hostOps0_4, hostOps0_5, hostOps0_6, List.cons_append, List.nil_append]
  after_results

set_option maxRecDepth 8192 in
/-- The bias operand: the bias as the first part left it, as one row. -/
theorem V_v45 (c : Dev nD) : (V m c main_v45 : S1x64.Idx → F .f32)
    = shapeCast S1x64 (W m c (Proc.devRef .tc main_arg3) : S64.Idx → F .f32) shapeCasts_S64_S1x64 := by
  show V0 m c (Proc.devRef .tc main_v45) = _
  rw [V0_eq]
  generalize W m c = X
  simp only [hostOps0_3, hostOps0_4, hostOps0_5, hostOps0_6, List.cons_append, List.nil_append]
  after_results
  rfl

end Cert.KernelIdeal.Entry

end
-- ==== Proof.PrefixAgree.lean ====
/-
  The two programs compute the edge messages and the target words by the same host operations.

  Up to the [800000, 64] array of edge messages the kernel's host part and the reference are the same sequence of
  operations applied to the same arguments: the two slices of the edge list (source and target words), the in-degree
  `deg` by a scatter-sum of ones, `(deg + 1e-16) ^ (-1/2)` where `deg > 0` and `0` elsewhere, the gathers of that array
  at the source and at the target words, their product, the gather of the source rows, the product.  The kernel then
  only changes the messages' format, which is the identity on the extended reals.  The comparison is made in three
  stages — up to the power, the choice between the power and zero, the rest — each over the contents the stage before
  left, so that no stage looks inside an earlier one.  The kernel's first part also leaves the integer zero it pads
  with, and the weight and the bias as launched.
-/
import proofs.«109898_j51994874085832_1_alg».proof.Proof.EntryArrays
import proofs.«109898_j51994874085832_1_alg».proof.Proof.ReferenceRun
import Idealize.ShloMosaic.Lib.StableHlo.Run
import Idealize.ShloMosaic.Lib.Pipeline.Frame
import Idealize.ShloMosaic.PureOps.Ideal

noncomputable section

namespace Cert.PrefixAgree

open Idealize.ShloMosaic Idealize.ShloMosaic.TcCoe Idealize.SL.Sem Idealize.ShloMosaic.StableHlo

abbrev KV := Valuation Cert.KernelIdeal.τ Cert.KernelIdeal.sig (Elt Ideal)
abbrev RV := Valuation Cert.ReferenceIdeal.τ Cert.ReferenceIdeal.sig (Elt Ideal)

/-- The reference's operations in four consecutive parts. -/
abbrev R1 : List (HloOp Cert.ReferenceIdeal.τ Cert.ReferenceIdeal.sig (Elt Ideal)) := (Cert.ReferenceIdeal.ValueP.ops (F := Ideal)).take 20
abbrev R2 : List (HloOp Cert.ReferenceIdeal.τ Cert.ReferenceIdeal.sig (Elt Ideal)) := ((Cert.ReferenceIdeal.ValueP.ops (F := Ideal)).drop 20).take 3
abbrev R3 : List (HloOp Cert.ReferenceIdeal.τ Cert.ReferenceIdeal.sig (Elt Ideal)) := ((Cert.ReferenceIdeal.ValueP.ops (F := Ideal)).drop 23).take 31
abbrev R4 : List (HloOp Cert.ReferenceIdeal.τ Cert.ReferenceIdeal.sig (Elt Ideal)) := (Cert.ReferenceIdeal.ValueP.ops (F := Ideal)).drop 54

section Kernel

open Cert.KernelIdeal Cert.KernelIdeal.Gen

variable {F : FTy → Type} [FloatOps F]
variable (m : (ℓ : Loc nD τ sig) → Buf (Elt F) ℓ)

set_option maxRecDepth 8192 in
set_option maxHeartbeats 4000000 in
/-- The integer the messages are padded with is zero. -/
theorem W_c10 (c : Dev nD) :
    (Entry.W m c (Proc.devRef .tc main_c_10) : S_.Idx → BitVec 32) = constantI S_ 32 0#32 := by
  unfold Entry.W
  simp only [hostOps0, hostOps0_1, hostOps0_2, List.cons_append, List.nil_append]
  after_results_simp

set_option maxRecDepth 8192 in
set_option maxHeartbeats 4000000 in
/-- The first part leaves the weight argument as launched. -/
theorem W_arg2 (c : Dev nD) :
    Entry.W m c (Proc.devRef .tc main_arg2) = m ((c : Thread nD τ).loc main_arg2) := by
  unfold Entry.W
  simp only [hostOps0, hostOps0_1, hostOps0_2, List.cons_append, List.nil_append]
  after_results_simp

set_option maxRecDepth 8192 in
set_option maxHeartbeats 4000000 in
/-- The first part leaves the bias argument as launched. -/
theorem W_arg3 (c : Dev nD) :
    Entry.W m c (Proc.devRef .tc main_arg3) = m ((c : Thread nD τ).loc main_arg3) := by
  unfold Entry.W
  simp only [hostOps0, hostOps0_1, hostOps0_2, List.cons_append, List.nil_append]
  after_results_simp

end Kernel

/-- What the reference's buffers hold after its operations, from launch contents `m'`. -/
abbrev refAfter (m' : (ℓ : Loc Cert.ReferenceIdeal.nD Cert.ReferenceIdeal.τ Cert.ReferenceIdeal.sig) → Buf (Elt Ideal) ℓ) (c : Dev Cert.ReferenceIdeal.nD) : RV :=
  StableHlo.after Cert.ReferenceIdeal.ValueP.ops (launchContents m' c)

set_option maxRecDepth 8192 in
/-- The four parts, one after the other, are the reference's operations. -/
theorem ops_split : Cert.ReferenceIdeal.ValueP.ops (F := Ideal) = R1 ++ (R2 ++ (R3 ++ R4)) := rfl

/-! ## Stage one: from the launch contents to the power -/

set_option maxRecDepth 8192 in
set_option maxHeartbeats 8000000 in
/-- The source words agree. -/
theorem s1_v1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1)) :
    (StableHlo.after Cert.KernelIdeal.Gen.hostOps0 (fun b => m (c, b)) (Proc.devRef .tc Cert.KernelIdeal.main_v1) : Cert.KernelIdeal.S800000.Idx → BitVec 32)
      = StableHlo.after R1 (launchContents m' c) (Proc.devRef .tc Cert.ReferenceIdeal.main_v1) := by
  simp only [Cert.KernelIdeal.Gen.hostOps0, R1, Cert.ReferenceIdeal.ValueP.ops, List.drop_succ_cons, List.drop_zero, List.take_succ_cons, List.take_zero]
  after_results_simp
  rw [show launchContents m' c (Proc.devRef .tc Cert.ReferenceIdeal.main_arg1) = m (c, Proc.devRef .tc Cert.KernelIdeal.main_arg1) from h1]
  rfl

set_option maxRecDepth 8192 in
set_option maxHeartbeats 8000000 in
/-- The target words agree. -/
theorem s1_v3 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1)) :
    (StableHlo.after Cert.KernelIdeal.Gen.hostOps0 (fun b => m (c, b)) (Proc.devRef .tc Cert.KernelIdeal.main_v3) : Cert.KernelIdeal.S800000.Idx → BitVec 32)
      = StableHlo.after R1 (launchContents m' c) (Proc.devRef .tc Cert.ReferenceIdeal.main_v3) := by
  simp only [Cert.KernelIdeal.Gen.hostOps0, R1, Cert.ReferenceIdeal.ValueP.ops, List.drop_succ_cons, List.drop_zero, List.take_succ_cons, List.take_zero]
  after_results_simp
  rw [show launchContents m' c (Proc.devRef .tc Cert.ReferenceIdeal.main_arg1) = m (c, Proc.devRef .tc Cert.KernelIdeal.main_arg1) from h1]
  rfl

set_option maxRecDepth 8192 in
set_option maxHeartbeats 8000000 in
/-- The mask `deg > 0` agrees. -/
theorem s1_v9 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1)) :
    (StableHlo.after Cert.KernelIdeal.Gen.hostOps0 (fun b => m (c, b)) (Proc.devRef .tc Cert.KernelIdeal.main_v9) : Cert.KernelIdeal.S50000.Idx → BitVec 1)
      = StableHlo.after R1 (launchContents m' c) (Proc.devRef .tc Cert.ReferenceIdeal.main_v9) := by
  simp only [Cert.KernelIdeal.Gen.hostOps0, R1, Cert.ReferenceIdeal.ValueP.ops, List.drop_succ_cons, List.drop_zero, List.take_succ_cons, List.take_zero]
  after_results_simp
  rw [show launchContents m' c (Proc.devRef .tc Cert.ReferenceIdeal.main_arg1) = m (c, Proc.devRef .tc Cert.KernelIdeal.main_arg1) from h1]
  rfl

set_option maxRecDepth 8192 in
set_option maxHeartbeats 8000000 in
/-- The power `(deg + 1e-16) ^ (-1/2)` agrees. -/
theorem s1_v13 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1)) :
    (StableHlo.after Cert.KernelIdeal.Gen.hostOps0 (fun b => m (c, b)) (Proc.devRef .tc Cert.KernelIdeal.main_v13) : Cert.KernelIdeal.S50000.Idx → Ideal .f32)
      = StableHlo.after R1 (launchContents m' c) (Proc.devRef .tc Cert.ReferenceIdeal.main_v13) := by
  simp only [Cert.KernelIdeal.Gen.hostOps0, R1, Cert.ReferenceIdeal.ValueP.ops, List.drop_succ_cons, List.drop_zero, List.take_succ_cons, List.take_zero]
  after_results_simp
  rw [show launchContents m' c (Proc.devRef .tc Cert.ReferenceIdeal.main_arg1) = m (c, Proc.devRef .tc Cert.KernelIdeal.main_arg1) from h1]
  rfl

set_option maxRecDepth 8192 in
set_option maxHeartbeats 8000000 in
/-- The zero the choice falls back on agrees. -/
theorem s1_cst4 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1)) :
    (StableHlo.after Cert.KernelIdeal.Gen.hostOps0 (fun b => m (c, b)) (Proc.devRef .tc Cert.KernelIdeal.main_cst_4) : Cert.KernelIdeal.S_.Idx → Ideal .f32)
      = StableHlo.after R1 (launchContents m' c) (Proc.devRef .tc Cert.ReferenceIdeal.main_cst_4) := by
  simp only [Cert.KernelIdeal.Gen.hostOps0, R1, Cert.ReferenceIdeal.ValueP.ops, List.drop_succ_cons, List.drop_zero, List.take_succ_cons, List.take_zero]
  after_results_simp

set_option maxRecDepth 8192 in
set_option maxHeartbeats 8000000 in
/-- The feature argument is untouched on both sides. -/
theorem s1_arg0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1)) :
    (StableHlo.after Cert.KernelIdeal.Gen.hostOps0 (fun b => m (c, b)) (Proc.devRef .tc Cert.KernelIdeal.main_arg0) : Cert.KernelIdeal.S50000x64.Idx → Ideal .f32)
      = StableHlo.after R1 (launchContents m' c) (Proc.devRef .tc Cert.ReferenceIdeal.main_arg0) := by
  simp only [Cert.KernelIdeal.Gen.hostOps0, R1, Cert.ReferenceIdeal.ValueP.ops, List.drop_succ_cons, List.drop_zero, List.take_succ_cons, List.take_zero]
  after_results_simp
  exact h0.symm

/-! ## Stage two: the choice between the power and zero -/

set_option maxRecDepth 8192 in
set_option maxHeartbeats 4000000 in
/-- From contents that agree on the mask, the power and the zero, the chosen array agrees. -/
theorem stage2 (XK : KV) (XR : RV)
    (e9 : (XK (Proc.devRef .tc Cert.KernelIdeal.main_v9) : Cert.KernelIdeal.S50000.Idx → BitVec 1) = XR (Proc.devRef .tc Cert.ReferenceIdeal.main_v9))
    (e13 : (XK (Proc.devRef .tc Cert.KernelIdeal.main_v13) : Cert.KernelIdeal.S50000.Idx → Ideal .f32) = XR (Proc.devRef .tc Cert.ReferenceIdeal.main_v13))
    (e4 : (XK (Proc.devRef .tc Cert.KernelIdeal.main_cst_4) : Cert.KernelIdeal.S_.Idx → Ideal .f32) = XR (Proc.devRef .tc Cert.ReferenceIdeal.main_cst_4)) :
    (StableHlo.after Cert.KernelIdeal.Gen.hostOps0_1 XK (Proc.devRef .tc Cert.KernelIdeal.main_v14) : Cert.KernelIdeal.S50000.Idx → Ideal .f32)
      = StableHlo.after R2 XR (Proc.devRef .tc Cert.ReferenceIdeal.main_v14) := by
  simp only [Cert.KernelIdeal.Gen.hostOps0_1, R2, Cert.ReferenceIdeal.ValueP.ops, List.drop_succ_cons, List.drop_zero, List.take_succ_cons, List.take_zero]
  after_results
  simp only [cast_eq, e9, e13, e4]

set_option maxRecDepth 8192 in
theorem k2_keep_v1 (X : KV) :
    StableHlo.after Cert.KernelIdeal.Gen.hostOps0_1 X (Proc.devRef .tc Cert.KernelIdeal.main_v1) = X (Proc.devRef .tc Cert.KernelIdeal.main_v1) := by
  simp only [Cert.KernelIdeal.Gen.hostOps0_1]
  after_results

set_option maxRecDepth 8192 in
theorem r2_keep_v1 (X : RV) :
    StableHlo.after R2 X (Proc.devRef .tc Cert.ReferenceIdeal.main_v1) = X (Proc.devRef .tc Cert.ReferenceIdeal.main_v1) := by
  simp only [R2, Cert.ReferenceIdeal.ValueP.ops, List.drop_succ_cons, List.drop_zero, List.take_succ_cons, List.take_zero]
  after_results

set_option maxRecDepth 8192 in
theorem k2_keep_v3 (X : KV) :
    StableHlo.after Cert.KernelIdeal.Gen.hostOps0_1 X (Proc.devRef .tc Cert.KernelIdeal.main_v3) = X (Proc.devRef .tc Cert.KernelIdeal.main_v3) := by
  simp only [Cert.KernelIdeal.Gen.hostOps0_1]
  after_results

set_option maxRecDepth 8192 in
theorem r2_keep_v3 (X : RV) :
    StableHlo.after R2 X (Proc.devRef .tc Cert.ReferenceIdeal.main_v3) = X (Proc.devRef .tc Cert.ReferenceIdeal.main_v3) := by
  simp only [R2, Cert.ReferenceIdeal.ValueP.ops, List.drop_succ_cons, List.drop_zero, List.take_succ_cons, List.take_zero]
  after_results

set_option maxRecDepth 8192 in
theorem k2_keep_arg0 (X : KV) :
    StableHlo.after Cert.KernelIdeal.Gen.hostOps0_1 X (Proc.devRef .tc Cert.KernelIdeal.main_arg0) = X (Proc.devRef .tc Cert.KernelIdeal.main_arg0) := by
  simp only [Cert.KernelIdeal.Gen.hostOps0_1]
  after_results

set_option maxRecDepth 8192 in
theorem r2_keep_arg0 (X : RV) :
    StableHlo.after R2 X (Proc.devRef .tc Cert.ReferenceIdeal.main_arg0) = X (Proc.devRef .tc Cert.ReferenceIdeal.main_arg0) := by
  simp only [R2, Cert.ReferenceIdeal.ValueP.ops, List.drop_succ_cons, List.drop_zero, List.take_succ_cons, List.take_zero]
  after_results

/-! ## Stage three: the gathers, the norm and the messages -/

set_option maxRecDepth 8192 in
set_option maxHeartbeats 32000000 in
/-- From contents that agree on the source words, the target words, the chosen array and the features, the messages
    agree: the kernel's in their 16-bit format are the reference's extended reals. -/
theorem stage3 (XK : KV) (XR : RV)
    (e1 : (XK (Proc.devRef .tc Cert.KernelIdeal.main_v1) : Cert.KernelIdeal.S800000.Idx → BitVec 32) = XR (Proc.devRef .tc Cert.ReferenceIdeal.main_v1))
    (e3 : (XK (Proc.devRef .tc Cert.KernelIdeal.main_v3) : Cert.KernelIdeal.S800000.Idx → BitVec 32) = XR (Proc.devRef .tc Cert.ReferenceIdeal.main_v3))
    (e14 : (XK (Proc.devRef .tc Cert.KernelIdeal.main_v14) : Cert.KernelIdeal.S50000.Idx → Ideal .f32) = XR (Proc.devRef .tc Cert.ReferenceIdeal.main_v14))
    (e0 : (XK (Proc.devRef .tc Cert.KernelIdeal.main_arg0) : Cert.KernelIdeal.S50000x64.Idx → Ideal .f32) = XR (Proc.devRef .tc Cert.ReferenceIdeal.main_arg0)) :
    (StableHlo.after Cert.KernelIdeal.Gen.hostOps0_2 XK (Proc.devRef .tc Cert.KernelIdeal.main_v40) : Cert.KernelIdeal.S800000x64.Idx → Ideal .bf16)
      = (StableHlo.after R3 XR (Proc.devRef .tc Cert.ReferenceIdeal.main_v39) : Cert.ReferenceIdeal.S800000x64.Idx → Ideal .f32) := by
  simp only [Cert.KernelIdeal.Gen.hostOps0_2, R3, Cert.ReferenceIdeal.ValueP.ops, List.drop_succ_cons, List.drop_zero, List.take_succ_cons, List.take_zero]
  after_results_simp
  simp only [e1, e3, e14, e0]
  rfl

set_option maxRecDepth 8192 in
theorem r4_keep_v39 (X : RV) :
    StableHlo.after R4 X (Proc.devRef .tc Cert.ReferenceIdeal.main_v39) = X (Proc.devRef .tc Cert.ReferenceIdeal.main_v39) := by
  simp only [R4, Cert.ReferenceIdeal.ValueP.ops, List.drop_succ_cons, List.drop_zero, List.take_succ_cons, List.take_zero]
  after_results

/-! ## The two arrays of edge messages, and of target words, agree -/

set_option maxRecDepth 8192 in
set_option maxHeartbeats 32000000 in
/-- The target words agree. -/
theorem col_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h1 : m' (c, Proc.devRef .tc Cert.ReferenceIdeal.main_arg1) = m (c, Proc.devRef .tc Cert.KernelIdeal.main_arg1)) :
    (Cert.KernelIdeal.Entry.W m c (Proc.devRef .tc Cert.KernelIdeal.main_v3) : Cert.KernelIdeal.S800000.Idx → BitVec 32)
      = refAfter m' c (Proc.devRef .tc Cert.ReferenceIdeal.main_v3) := by
  unfold Cert.KernelIdeal.Entry.W refAfter
  simp only [Cert.KernelIdeal.Gen.hostOps0, Cert.KernelIdeal.Gen.hostOps0_1, Cert.KernelIdeal.Gen.hostOps0_2, List.cons_append, List.nil_append,
    Cert.ReferenceIdeal.ValueP.ops]
  after_results_simp
  rw [show launchContents m' c (Proc.devRef .tc Cert.ReferenceIdeal.main_arg1) = m (c, Proc.devRef .tc Cert.KernelIdeal.main_arg1) from h1]
  rfl

set_option maxHeartbeats 4000000 in
/-- The edge messages agree. -/
theorem msg_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1)) :
    (Cert.KernelIdeal.Entry.W m c (Proc.devRef .tc Cert.KernelIdeal.main_v40) : Cert.KernelIdeal.S800000x64.Idx → Ideal .bf16)
      = (refAfter m' c (Proc.devRef .tc Cert.ReferenceIdeal.main_v39) : Cert.ReferenceIdeal.S800000x64.Idx → Ideal .f32) := by
  unfold Cert.KernelIdeal.Entry.W refAfter
  rw [ops_split]
  simp only [StableHlo.after_append]
  rw [r4_keep_v39]
  refine stage3 _ _ ?_ ?_ ?_ ?_
  · rw [k2_keep_v1, r2_keep_v1]; exact s1_v1 m m' c h0 h1
  · rw [k2_keep_v3, r2_keep_v3]; exact s1_v3 m m' c h0 h1
  · exact stage2 _ _ (s1_v9 m m' c h0 h1) (s1_v13 m m' c h0 h1) (s1_cst4 m m' c h0 h1)
  · rw [k2_keep_arg0, r2_keep_arg0]; exact s1_arg0 m m' c h0 h1

end Cert.PrefixAgree

end
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.LibScatterAddSum.lean ====
/-
  The accumulating float scatter on the extended reals, read at an index.

  At the exact instance a scatter-add delivers each operand element plus the sum of the update elements that land on
  it.  For a scatter of whole rows (and of single elements of a flat array) with one scalar index per update row, the
  updates landing on row `n` are those of the update rows whose index, read signed, is `n`: the sum over update
  indices becomes a sum over those update rows.
-/
import Idealize.ShloMosaic.PureOps.Ideal
import Idealize.ShloMosaic.Lib.ValueIdx
import proofs.«109898_j51994874085832_1_alg».proof.Proof.LibRowGatherScatter

noncomputable section

open scoped BigOperators

namespace Idealize.ShloMosaic.RowGatherScatter

open Idealize.ShloMosaic Idealize.ShloMosaic.ValueIdx

/-- Two rank-2 indices built from coordinates are equal only when the coordinates are. -/
theorem ix2_inj {n0 n1 : Nat} {a a' : Fin n0} {b b' : Fin n1} (h : ix2 a b = ix2 a' b') : a = a' ∧ b = b' :=
  ⟨congrFun h 0, congrFun h 1⟩

/-- Two rank-1 indices built from a coordinate are equal only when the coordinates are. -/
theorem ix1_inj {n0 : Nat} {a a' : Fin n0} (h : ix1 a = ix1 a') : a = a' := congrFun h 0

/-- THE ROW SCATTER-ADD READ AT `(n, j)`: the operand's element plus the sum, over the update rows `e` whose scatter
    index `idx[e, 0]` read signed is `n`, of the update's element `(e, j)`. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (j : Fin D) :
    Ideal.hostScatterAdd (rowScatterDims N E D wf) x idx upd (ix2 n j)
      = x (ix2 n j) + ∑ e ∈ Finset.univ.filter (fun e : Fin E => (idx (ix2 e (0 : Fin 1))).toInt = (n.val : Int)),
          upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, rowScatter_resultIdx?_of_toInt wf idx e j n he.2⟩
  · intro a _ b _ h
    exact (ix2_inj h).1
  · intro u hu
    rw [Finset.mem_filter] at hu
    obtain ⟨p, q, rfl⟩ : ∃ (p : Fin E) (q : Fin D), u = ix2 p q := ⟨u 0, u 1, eq_ix2 u⟩
    obtain ⟨n', hn', hidx⟩ := rowScatter_resultIdx?_eq_some wf idx p q _ hu.2
    obtain ⟨hn, hj⟩ := ix2_inj hn'
    subst hn
    subst hj
    exact ⟨p, Finset.mem_filter.mpr ⟨Finset.mem_univ _, hidx⟩, rfl⟩
  · intro e _
    rfl

/-- THE ELEMENT SCATTER-ADD READ AT `n`: the operand's element plus the sum, over the updates `e` whose scatter index
    `idx[e, 0]` read signed is `n`, of the update's element `e`. -/
theorem elemScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (elemScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, elemScatter_resultIdx?_of_toInt wf idx e n he.2⟩
  · intro a _ b _ h
    exact ix1_inj h
  · intro u hu
    rw [Finset.mem_filter] at hu
    obtain ⟨p, rfl⟩ : ∃ (p : Fin E), u = ix1 p := ⟨u 0, eq_ix1 u⟩
    obtain ⟨n', hn', hidx⟩ := elemScatter_resultIdx?_eq_some wf idx p _ hu.2
    have hn := ix1_inj hn'
    subst hn
    exact ⟨p, Finset.mem_filter.mpr ⟨Finset.mem_univ _, hidx⟩, rfl⟩
  · intro e _
    rfl

end Idealize.ShloMosaic.RowGatherScatter

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.LibDenseRelu.lean ====
/-
  A dense layer followed by a rectifier, read at an entry at the ideal values (the extended reals), for arbitrary
  extents, in the two spellings a program meets it in.

  * `hostBias_apply`: a bias vector `[n]` broadcast through a unit row `[1, n]` over `[m, n]` reads, at `(a, b)`,
    the vector's entry `b`.
  * `hostDenseRelu_apply`: the host's `max (A · B + bias) 0` — a `dot_general` of `[m, k]` by `[k, n]`, the bias
    broadcast as above, the zero a broadcast scalar constant — is, at `(a, b)`,
    `max (∑ c, A (a, c) * B (c, b) + bias b) 0`.
  * `vecDenseRelu_apply`: the vector unit's spelling — a `tpu.matmul` of the two operands, each first rounded to a
    narrower format (the identity on extended reals), into a zero accumulator, the bias a `[1, n]` row (behind an
    identity shape cast) broadcast over the rows, the zero a broadcast scalar — is the same expression with the bias
    row's entry `(0, b)`.
-/
import Idealize.ShloMosaic.Lib.Pipeline.Value
import Idealize.ShloMosaic.Lib.ValueIdx
import Idealize.ShloMosaic.Lib.ValueLayout
import Idealize.ShloMosaic.PureOps.Ideal.Laws
import proofs.«109898_j51994874085832_1_alg».proof.Proof.LibDenseLayers
import proofs.«109898_j51994874085832_1_alg».proof.Proof.LibHostMatmul

noncomputable section

namespace Idealize.ShloMosaic.DenseRelu

open Idealize.ShloMosaic Idealize.ShloMosaic.ValueIdx Idealize.ShloMosaic.DenseLayers

/-- A bias vector broadcast through a unit row over all rows reads its entry of the column. -/
theorem hostBias_apply {α : Type} {m n : ℕ} (bias : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    broadcastInDim ⟨2, ![m, n]⟩ ![0, 1] h2 (broadcastInDim ⟨2, ![1, n]⟩ ![1] h1 bias) (ix2 a b) = bias (ix1 b) := by
  refine (broadcastInDim_apply _ h2 _ (ix2 a b) (ix2 (0 : Fin 1) b) fun ax => ?_).trans
    (broadcastInDim_apply _ h1 bias (ix2 (0 : Fin 1) b) (ix1 b) fun ax => ?_)
  · match ax with
    | ⟨0, _⟩ => rfl
    | ⟨1, _⟩ =>
      show b.val = if n = 1 then 0 else b.val
      split
      · have := b.isLt; omega
      · rfl
  · match ax with
    | ⟨0, _⟩ =>
      show b.val = if n = 1 then 0 else b.val
      split
      · have := b.isLt; omega
      · rfl

/-- The host's dense layer with a rectifier, read at an entry. -/
theorem hostDenseRelu_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (bias : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![]) (a : Fin m) (b : Fin n) :
    maximumf (addf (Host.dotGeneral (⟨[1], [0], [0], [1], [], [], w⟩ : DotDims ⟨2, ![m, k]⟩ ⟨2, ![k, n]⟩ ⟨2, ![m, n]⟩) prec A B)
        (broadcastInDim ⟨2, ![m, n]⟩ ![0, 1] h2 (broadcastInDim ⟨2, ![1, n]⟩ ![1] h1 bias)))
      (broadcastInDim ⟨2, ![m, n]⟩ ![] h0 (constant (F := Ideal) ⟨0, ![]⟩ .f32 0x00000000#32)) (ix2 a b)
      = max (∑ c : Fin k, A (ix2 a c) * B (ix2 c b) + bias (ix1 b)) (Ideal.ofBits .f32 0x00000000#32) := by
  rw [maximumf_apply, addf_apply, dotGeneral_rowcol_apply, hostBias_apply, broadcastInDim_scalar_constant_apply]

/-- The vector unit's dense layer with a rectifier, read at an entry. -/
theorem vecDenseRelu_apply {m k n : ℕ} {ψ : FTy}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (hA : ψ.bits < FTy.f32.bits) (hB : ψ.bits < FTy.f32.bits)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (a : Fin m) (b : Fin n) :
    maximumf (addf (matmul (⟨[1], [0], [0], [1], [], [], w⟩ : DotDims ⟨2, ![m, k]⟩ ⟨2, ![k, n]⟩ ⟨2, ![m, n]⟩) prec
          (truncf ψ A hA) (truncf ψ B hB) (constant (F := Ideal) ⟨2, ![m, n]⟩ .f32 0x00000000#32))
        (broadcastTo ⟨2, ![m, n]⟩ (shapeCast ⟨2, ![1, n]⟩ bias hc) hb))
      (broadcast ⟨2, ![m, n]⟩ (Scalar.ofBits (F := Ideal) .f32 0x00000000#32)) (ix2 a b)
      = max (∑ c : Fin k, A (ix2 a c) * B (ix2 c b) + bias (ix2 (0 : Fin 1) b)) (Ideal.ofBits .f32 0x00000000#32) := by
  rw [maximumf_apply, addf_apply, matmul_rowcol_zero_apply, broadcastTo_1b_ab_apply, shapeCast_self]
  rfl

end Idealize.ShloMosaic.DenseRelu

end
-- ==== Proof.RefTail.lean ====
/-
  The reference's last operations, as one function of the edge messages, the target words, the weight and the bias, and
  that function read at an entry.

  After it has formed the [800000, 64] messages `msg` and the 800000 target words `col`, the reference adds each
  message row into the row of a [50000, 64] array of zeros that its target word names (a word that names no row —
  negative, or 50000 and above — is dropped), multiplies by the weight, adds the bias and cuts off below at zero.  At
  `(n, c)` this is `max (Σ_k agg (n, k) * W (k, c) + b c, 0)` with `agg (n, k) = 0 + Σ_{e : col e = n} msg (e, k)`.
-/
import proofs.«109898_j51994874085832_1_alg».proof.Proof.Gen.ReferenceIdeal
import proofs.«109898_j51994874085832_1_alg».proof.Proof.LibScatterAddSum
import proofs.«109898_j51994874085832_1_alg».proof.Proof.LibDenseRelu
import Idealize.ShloMosaic.Lib.Pipeline.Value
import Idealize.ShloMosaic.Lib.ValueIdx
import Idealize.ShloMosaic.PureOps.Ideal.Laws

noncomputable section

open scoped BigOperators

namespace Cert.ReferenceIdeal.Tail

open Idealize.ShloMosaic Idealize.ShloMosaic.ValueIdx
open Cert.ReferenceIdeal Cert.ReferenceIdeal.Gen

variable {F : FTy → Type} [FloatOps F]

/-- The scatter-sum of the messages into a zero array, by target word. -/
def agg (msg : S800000x64.Idx → F .f32) (col : S800000.Idx → BitVec 32) : S50000x64.Idx → F .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 col) msg

/-- The reference's result from the messages, the target words, the weight and the bias. -/
def tail (msg : S800000x64.Idx → F .f32) (col : S800000.Idx → BitVec 32) (Wt : S64x64.Idx → F .f32)
    (b : S64.Idx → F .f32) : S50000x64.Idx → F .f32 :=
  maximumf (addf (Host.dotGeneral dot_S50000x64_S64x64_S50000x64_1_0_0_1_n_n none (agg msg col) Wt)
      (broadcastInDim S50000x64 ![0, 1] bcast_S1x64_S50000x64_0_1 (broadcastInDim S1x64 ![1] bcast_S64_S1x64_1 b)))
    (broadcastInDim S50000x64 ![] bcast_S_S50000x64 (constant (F := F) S_ .f32 0x00000000#32))

/-- The host's accumulating scatter at the extended reals is the exact scatter-sum, whatever its operands. -/
theorem scatterAdd_ideal {s si u : Shape} {w : ℕ} {φ : FTy} (d : ScatterDims s si u) (x : FVec Ideal s φ)
    (idx : IVec si w) (upd : FVec Ideal u φ) : Host.scatterAdd d x idx upd = Ideal.hostScatterAdd d x idx upd := rfl

/-- The reference's scatter is a scatter of whole rows: the updates' axis 1 is the window, the operand's axis 0 is the
    one the index names. -/
theorem scatter_dims_eq : scatter_S50000x64_S800000x1_S800000x64_1_0_0_1
    = RowGatherScatter.rowScatterDims 50000 800000 64 scatter_S50000x64_S800000x1_S800000x64_1_0_0_1_wf := rfl

/-- The reference's scatter-sum read at `(n, k)`, whatever array it adds into and whatever index words it is given: that
    array's entry plus the update rows' entries `(e, k)` over the rows `e` whose index word, read signed, is `n`. -/
theorem scatter_apply (x : S50000x64.Idx → Ideal .f32) (idx : IVec S800000x1 32) (upd : S800000x64.Idx → Ideal .f32)
    (n : Fin 50000) (k : Fin 64) :
    Host.scatterAdd scatter_S50000x64_S800000x1_S800000x64_1_0_0_1 x idx upd (ix2 n k)
      = x (ix2 n k) + ∑ e ∈ Finset.univ.filter (fun e : Fin 800000 => (idx (ix2 e (0 : Fin 1))).toInt = (n.val : Int)),
          upd (ix2 e k) := by
  rw [scatterAdd_ideal, scatter_dims_eq]
  exact RowGatherScatter.rowScatterAdd_apply scatter_S50000x64_S800000x1_S800000x64_1_0_0_1_wf x idx upd n k

/-- The aggregate at `(n, k)`: zero plus the messages' entries `(e, k)` over the edges `e` whose target word, read
    signed, is `n`. -/
theorem agg_apply (msg : S800000x64.Idx → Ideal .f32) (col : S800000.Idx → BitVec 32) (n : Fin 50000) (k : Fin 64) :
    agg (F := Ideal) msg col (ix2 n k)
      = 0 + ∑ e ∈ Finset.univ.filter (fun e : Fin 800000 => (col (ix1 e)).toInt = (n.val : Int)), msg (ix2 e k) := by
  unfold agg
  rw [scatter_apply]
  refine congrArg₂ (· + ·) (DenseLayers.broadcastInDim_scalar_constant_apply _ bcast_S_S50000x64 (ix2 n k) |>.trans Ideal.ofBits_zero_f32) ?_
  refine Finset.sum_congr (Finset.filter_congr fun e _ => ?_) fun _ _ => rfl
  have he : broadcastInDim S800000x1 ![0] bcast_S800000_S800000x1_0 col (ix2 e (0 : Fin 1)) = col (ix1 e) :=
    broadcastInDim_apply _ bcast_S800000_S800000x1_0 col (ix2 e (0 : Fin 1)) (ix1 e) fun ax => by
      match ax with
      | ⟨0, _⟩ => rfl
  rw [he]

set_option maxHeartbeats 4000000 in
/-- The result at `(n, c)`. -/
theorem tail_apply (msg : S800000x64.Idx → Ideal .f32) (col : S800000.Idx → BitVec 32) (Wt : S64x64.Idx → Ideal .f32)
    (b : S64.Idx → Ideal .f32) (n : Fin 50000) (c : Fin 64) :
    tail (F := Ideal) msg col Wt b (ix2 n c)
      = max (∑ k : Fin 64, agg (F := Ideal) msg col (ix2 n k) * Wt (ix2 k c) + b (ix1 c)) 0 := by
  unfold tail
  refine (DenseRelu.hostDenseRelu_apply dot_S50000x64_S64x64_S50000x64_1_0_0_1_n_n_wf none (agg (F := Ideal) msg col) Wt b
    bcast_S64_S1x64_1 bcast_S1x64_S50000x64_0_1 bcast_S_S50000x64 n c).trans ?_
  rw [Ideal.ofBits_zero_f32]

end Cert.ReferenceIdeal.Tail

end
-- ==== Proof.RefResult.lean ====
/-
  The reference's result buffer, as its last operations applied to its own edge messages and target words.

  The reference's 65 operations are read in parts.  The last eleven take the messages `msg`, the target words `col`,
  the weight and the bias as the earlier ones left them: eight form `agg · W + b` with `agg` the scatter-sum of `msg`
  by `col`, and three cut it off below at zero.  None of them touches `msg`, `col` or an argument, and no operation at
  all touches an argument.  So the result buffer holds `max (agg · W + b, 0)` of the reference's own `msg` and `col` and
  of the weight and bias as launched.
-/
import proofs.«109898_j51994874085832_1_alg».proof.Proof.PrefixAgree
import proofs.«109898_j51994874085832_1_alg».proof.Proof.RefTail

noncomputable section

namespace Cert.RefResult

open Idealize.ShloMosaic Idealize.ShloMosaic.TcCoe Idealize.SL.Sem Idealize.ShloMosaic.StableHlo
open Cert.PrefixAgree

/-- The last eleven operations in two parts: the eight that form `agg · W + b`, the three that cut off at zero. -/
abbrev R4a : List (HloOp Cert.ReferenceIdeal.τ Cert.ReferenceIdeal.sig (Elt Ideal)) := ((Cert.ReferenceIdeal.ValueP.ops (F := Ideal)).drop 54).take 8
abbrev R5 : List (HloOp Cert.ReferenceIdeal.τ Cert.ReferenceIdeal.sig (Elt Ideal)) := (Cert.ReferenceIdeal.ValueP.ops (F := Ideal)).drop 62

set_option maxRecDepth 8192 in
theorem r4_split : R4 = R4a ++ R5 := rfl

set_option maxRecDepth 8192 in
set_option maxHeartbeats 8000000 in
/-- The reference's operations leave the feature argument as launched. -/
theorem refAfter_arg0 (m' : (ℓ : Loc Cert.ReferenceIdeal.nD Cert.ReferenceIdeal.τ Cert.ReferenceIdeal.sig) → Buf (Elt Ideal) ℓ) (c : Dev Cert.ReferenceIdeal.nD) :
    refAfter m' c (Proc.devRef .tc Cert.ReferenceIdeal.main_arg0) = m' (c, Proc.devRef .tc Cert.ReferenceIdeal.main_arg0) := by
  after_results_simp

set_option maxRecDepth 8192 in
set_option maxHeartbeats 8000000 in
/-- The reference's operations leave the edge-list argument as launched. -/
theorem refAfter_arg1 (m' : (ℓ : Loc Cert.ReferenceIdeal.nD Cert.ReferenceIdeal.τ Cert.ReferenceIdeal.sig) → Buf (Elt Ideal) ℓ) (c : Dev Cert.ReferenceIdeal.nD) :
    refAfter m' c (Proc.devRef .tc Cert.ReferenceIdeal.main_arg1) = m' (c, Proc.devRef .tc Cert.ReferenceIdeal.main_arg1) := by
  after_results_simp

set_option maxRecDepth 8192 in
set_option maxHeartbeats 8000000 in
/-- The reference's operations leave the weight argument as launched. -/
theorem refAfter_arg2 (m' : (ℓ : Loc Cert.ReferenceIdeal.nD Cert.ReferenceIdeal.τ Cert.ReferenceIdeal.sig) → Buf (Elt Ideal) ℓ) (c : Dev Cert.ReferenceIdeal.nD) :
    refAfter m' c (Proc.devRef .tc Cert.ReferenceIdeal.main_arg2) = m' (c, Proc.devRef .tc Cert.ReferenceIdeal.main_arg2) := by
  after_results_simp

set_option maxRecDepth 8192 in
set_option maxHeartbeats 8000000 in
/-- The reference's operations leave the bias argument as launched. -/
theorem refAfter_arg3 (m' : (ℓ : Loc Cert.ReferenceIdeal.nD Cert.ReferenceIdeal.τ Cert.ReferenceIdeal.sig) → Buf (Elt Ideal) ℓ) (c : Dev Cert.ReferenceIdeal.nD) :
    refAfter m' c (Proc.devRef .tc Cert.ReferenceIdeal.main_arg3) = m' (c, Proc.devRef .tc Cert.ReferenceIdeal.main_arg3) := by
  after_results_simp

set_option maxRecDepth 8192 in
theorem r4_keep_v3 (X : RV) :
    StableHlo.after R4 X (Proc.devRef .tc Cert.ReferenceIdeal.main_v3) = X (Proc.devRef .tc Cert.ReferenceIdeal.main_v3) := by
  simp only [R4, Cert.ReferenceIdeal.ValueP.ops, List.drop_succ_cons, List.drop_zero, List.take_succ_cons, List.take_zero]
  after_results

set_option maxRecDepth 8192 in
theorem r4_keep_arg2 (X : RV) :
    StableHlo.after R4 X (Proc.devRef .tc Cert.ReferenceIdeal.main_arg2) = X (Proc.devRef .tc Cert.ReferenceIdeal.main_arg2) := by
  simp only [R4, Cert.ReferenceIdeal.ValueP.ops, List.drop_succ_cons, List.drop_zero, List.take_succ_cons, List.take_zero]
  after_results

set_option maxRecDepth 8192 in
theorem r4_keep_arg3 (X : RV) :
    StableHlo.after R4 X (Proc.devRef .tc Cert.ReferenceIdeal.main_arg3) = X (Proc.devRef .tc Cert.ReferenceIdeal.main_arg3) := by
  simp only [R4, Cert.ReferenceIdeal.ValueP.ops, List.drop_succ_cons, List.drop_zero, List.take_succ_cons, List.take_zero]
  after_results

set_option maxRecDepth 8192 in
set_option maxHeartbeats 8000000 in
/-- The eight operations, from any contents: `agg · W + b` of the messages, target words, weight and bias found there. -/
theorem r4a_v46 (Y : RV) :
    (StableHlo.after R4a Y (Proc.devRef .tc Cert.ReferenceIdeal.main_v46) : Cert.ReferenceIdeal.S50000x64.Idx → Ideal .f32)
      = addf (Host.dotGeneral (φ₁ := .f32) (φ₂ := .f32) Cert.ReferenceIdeal.dot_S50000x64_S64x64_S50000x64_1_0_0_1_n_n none
            (Cert.ReferenceIdeal.Tail.agg (F := Ideal) (Y (Proc.devRef .tc Cert.ReferenceIdeal.main_v39)) (Y (Proc.devRef .tc Cert.ReferenceIdeal.main_v3)))
            (Y (Proc.devRef .tc Cert.ReferenceIdeal.main_arg2) : Cert.ReferenceIdeal.S64x64.Idx → Ideal .f32))
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1
              (Y (Proc.devRef .tc Cert.ReferenceIdeal.main_arg3) : Cert.ReferenceIdeal.S64.Idx → Ideal .f32))) := by
  simp only [R4a, Cert.ReferenceIdeal.ValueP.ops, List.drop_succ_cons, List.drop_zero, List.take_succ_cons, List.take_zero]
  after_results
  rfl

set_option maxRecDepth 8192 in
set_option maxHeartbeats 8000000 in
/-- The three operations, from any contents: the maximum of what is found at `%46` and a zero array. -/
theorem r5_v47 (Z : RV) :
    (StableHlo.after R5 Z (Proc.devRef .tc Cert.ReferenceIdeal.main_v47) : Cert.ReferenceIdeal.S50000x64.Idx → Ideal .f32)
      = maximumf (Z (Proc.devRef .tc Cert.ReferenceIdeal.main_v46) : Cert.ReferenceIdeal.S50000x64.Idx → Ideal .f32)
          (broadcastInDim Cert.ReferenceIdeal.S50000x64 ![] Cert.ReferenceIdeal.Gen.bcast_S_S50000x64 (constant (F := Ideal) Cert.ReferenceIdeal.S_ .f32 0x00000000#32)) := by
  simp only [R5, Cert.ReferenceIdeal.ValueP.ops, List.drop_succ_cons, List.drop_zero, List.take_succ_cons, List.take_zero]
  after_results
  simp only [cast_eq]

/-- The reference's result buffer holds its last operations applied to its own edge messages and target words. -/
theorem res_eq (m' : (ℓ : Loc Cert.ReferenceIdeal.nD Cert.ReferenceIdeal.τ Cert.ReferenceIdeal.sig) → Buf (Elt Ideal) ℓ) (c : Dev Cert.ReferenceIdeal.nD) :
    (refAfter m' c (Proc.devRef .tc Cert.ReferenceIdeal.main_v47) : Cert.ReferenceIdeal.S50000x64.Idx → Ideal .f32)
      = Cert.ReferenceIdeal.Tail.tail (F := Ideal) (refAfter m' c (Proc.devRef .tc Cert.ReferenceIdeal.main_v39))
          (refAfter m' c (Proc.devRef .tc Cert.ReferenceIdeal.main_v3))
          (m' (c, Proc.devRef .tc Cert.ReferenceIdeal.main_arg2)) (m' (c, Proc.devRef .tc Cert.ReferenceIdeal.main_arg3)) := by
  rw [← refAfter_arg2 m' c, ← refAfter_arg3 m' c]
  unfold refAfter
  rw [ops_split]
  simp only [StableHlo.after_append]
  generalize StableHlo.after R3 (StableHlo.after R2 (StableHlo.after R1 (launchContents m' c))) = Y
  rw [r4_keep_v39, r4_keep_v3, r4_keep_arg2, r4_keep_arg3, r4_split, StableHlo.after_append, r5_v47, r4a_v46]
  rfl

/-- The reference's run: every weakly fair execution terminates with every buffer at what its operations leave there. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩ fun r =>
      ∀ (c : Dev Cert.ReferenceIdeal.nD) (b : Ref Cert.ReferenceIdeal.sig .tc),
        r.2.mem ((c.tc : Thread Cert.ReferenceIdeal.nD Cert.ReferenceIdeal.τ).loc b) = refAfter m' c (Proc.devRef .tc b) :=
  run_seq Cert.ReferenceIdeal.ValueP.scopedRefs_eq Cert.ReferenceIdeal.ValueP.scopedSems_eq Cert.ReferenceIdeal.defs Cert.ReferenceIdeal.main (fun _ => Cert.ReferenceIdeal.ValueP.ops)
    Cert.ReferenceIdeal.ValueP.main_eq (fun _ => Cert.ReferenceIdeal.ValueP.ops_sub) m' ρ'

end Cert.RefResult

end
-- ==== Proof.LibPadTail.lean ====
/-
  A `stablehlo.pad` that only appends at the end of the leading axis, read at an index, for arbitrary extents.

  With zero low padding and no interior padding, the padded array reads the operand wherever the leading coordinate is
  inside the operand's extent, and the padding value from there on.  Stated for a matrix whose rows are extended
  (`pad_rows_apply`) and for a flat array (`pad_tail_apply`).  No program is imported.
-/
import Idealize.ShloMosaic.PureOps
import Idealize.ShloMosaic.Lib.ValueIdx

noncomputable section

namespace Idealize.ShloMosaic.PadTail

open Idealize.ShloMosaic Idealize.ShloMosaic.ValueIdx

/-- Rows appended below an `[E, D]` matrix: entry `(e, k)` of the `[N, D]` result is the operand's entry when
    `e < E` and the padding value otherwise. -/
theorem pad_rows_apply {α : Type} {E P N D : ℕ} (x : (⟨2, ![E, D]⟩ : Shape).Idx → α) {u : Shape} (v : u.Idx → α)
    (h : (⟨2, ![E, D]⟩ : Shape).Pads ![0, 0] ![P, 0] ![0, 0] ⟨2, ![N, D]⟩) (hu : 0 < u.numel)
    (e : Fin N) (k : Fin D) :
    pad ⟨2, ![N, D]⟩ ![0, 0] ![P, 0] ![0, 0] x v h hu (ix2 e k)
      = if he : e.val < E then x (ix2 ⟨e.val, he⟩ k) else v (Shape.Idx.first hu) := by
  unfold pad
  by_cases he : e.val < E
  · rw [dif_pos he]
    have hin : ∀ a : Fin (⟨2, ![E, D]⟩ : Shape).rank, (![0, 0] : Fin 2 → ℕ) a ≤ ((ix2 e k) (a.cast h.1)).val
        ∧ (((ix2 e k) (a.cast h.1)).val - (![0, 0] : Fin 2 → ℕ) a) % ((![0, 0] : Fin 2 → ℕ) a + 1) = 0
        ∧ (((ix2 e k) (a.cast h.1)).val - (![0, 0] : Fin 2 → ℕ) a) / ((![0, 0] : Fin 2 → ℕ) a + 1) < (⟨2, ![E, D]⟩ : Shape).size a := by
      intro a
      match a with
      | ⟨0, _⟩ => exact ⟨Nat.zero_le _, Nat.mod_one _, by simpa using he⟩
      | ⟨1, _⟩ => exact ⟨Nat.zero_le _, Nat.mod_one _, by simpa using k.isLt⟩
    rw [dif_pos hin]
    congr 1
    funext a; apply Fin.ext
    match a with
    | ⟨0, _⟩ => simp
    | ⟨1, _⟩ => simp
  · rw [dif_neg he, dif_neg]
    intro hin
    have h0 := (hin (0 : Fin 2)).2.2
    exact he (by simpa using h0)

/-- Positions appended after a flat `[E]` array: position `e` of the `[N]` result is the operand's when `e < E` and
    the padding value otherwise. -/
theorem pad_tail_apply {α : Type} {E P N : ℕ} (x : (⟨1, ![E]⟩ : Shape).Idx → α) {u : Shape} (v : u.Idx → α)
    (h : (⟨1, ![E]⟩ : Shape).Pads ![0] ![P] ![0] ⟨1, ![N]⟩) (hu : 0 < u.numel) (e : Fin N) :
    pad ⟨1, ![N]⟩ ![0] ![P] ![0] x v h hu (ix1 e)
      = if he : e.val < E then x (ix1 ⟨e.val, he⟩) else v (Shape.Idx.first hu) := by
  unfold pad
  by_cases he : e.val < E
  · rw [dif_pos he]
    have hin : ∀ a : Fin (⟨1, ![E]⟩ : Shape).rank, (![0] : Fin 1 → ℕ) a ≤ ((ix1 e) (a.cast h.1)).val
        ∧ (((ix1 e) (a.cast h.1)).val - (![0] : Fin 1 → ℕ) a) % ((![0] : Fin 1 → ℕ) a + 1) = 0
        ∧ (((ix1 e) (a.cast h.1)).val - (![0] : Fin 1 → ℕ) a) / ((![0] : Fin 1 → ℕ) a + 1) < (⟨1, ![E]⟩ : Shape).size a := by
      intro a
      match a with
      | ⟨0, _⟩ => exact ⟨Nat.zero_le _, Nat.mod_one _, by simpa using he⟩
    rw [dif_pos hin]
    congr 1
    funext a; apply Fin.ext
    match a with
    | ⟨0, _⟩ => simp
  · rw [dif_neg he, dif_neg]
    intro hin
    have h0 := (hin (0 : Fin 1)).2.2
    exact he (by simpa using h0)

end Idealize.ShloMosaic.PadTail

end
-- ==== Proof.Bridge.lean ====
/-
  The kernel's result, entry by entry, in the reference's terms.

  Write `msg` and `col` for the edge messages and target words as the kernel's host part leaves them.  The padded
  lists the region reads are `msg`, `col` on the first 800000 positions and zero messages after; so the kernel's
  aggregate of node `n` — a sum over 391 blocks of 2048 positions of selector times message — is the sum of `msg (e, k)`
  over the true edges `e` whose target word is the word of `n`, which for `n < 50000` says the word read signed is
  `n`.  The first 50000 rows of the padded result are then `max (Σ_k agg (n, k) * W (k, c) + b c, 0)` over the weight
  and bias as launched: the reference's expression.
-/
import proofs.«109898_j51994874085832_1_alg».proof.Proof.KernelOut
import proofs.«109898_j51994874085832_1_alg».proof.Proof.PrefixAgree
import proofs.«109898_j51994874085832_1_alg».proof.Proof.EdgeSums
import proofs.«109898_j51994874085832_1_alg».proof.Proof.LibPadTail
import Idealize.ShloMosaic.Lib.ValueLayout

noncomputable section

open scoped BigOperators

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The edge messages as the kernel's host part leaves them (in their 16-bit format: the same extended reals). -/
abbrev msgK : S800000x64.Idx → Ideal .bf16 := Entry.W m c (Proc.devRef .tc main_v40)

/-- The target words as the kernel's host part leaves them. -/
abbrev colK : S800000.Idx → BitVec 32 := Entry.W m c (Proc.devRef .tc main_v3)

/-- On a true edge the padded target row reads the edge's target word. -/
theorem cpN_eq (e : Fin 800000) : Acc.cpN m c e.val = colK m c (ix1 e) := by
  have h1 : e.val < 800768 := by have := e.isLt; omega
  unfold Acc.cpN
  rw [dif_pos h1, Entry.V_v43 m c]
  refine (shapeCast_a_1a_apply _ shapeCasts_S800768_S1x800768 (0 : Fin 1) ⟨e.val, h1⟩).trans ?_
  refine (PadTail.pad_tail_apply _ _ pads_S800000_S800768_07680 h_S_ ⟨e.val, h1⟩).trans ?_
  rw [dif_pos e.isLt]

/-- On a true edge the padded message list reads the edge's message. -/
theorem mpN_eq (k : Fin 64) (e : Fin 800000) : Acc.mpN m c k e.val = msgK m c (ix2 e k) := by
  have h1 : e.val < 800768 := by have := e.isLt; omega
  unfold Acc.mpN
  rw [dif_pos h1, Entry.V_v41 m c]
  refine (PadTail.pad_rows_apply _ _ pads_S800000x64_S800768x64_07680_000 h_S_ ⟨e.val, h1⟩ k).trans ?_
  rw [dif_pos e.isLt]

/-- Past the true edges the padded message list reads zero. -/
theorem mpN_pad (k : Fin 64) (e : ℕ) (he : 800000 ≤ e) : Acc.mpN m c k e = 0 := by
  unfold Acc.mpN
  by_cases h1 : e < 800768
  · rw [dif_pos h1, Entry.V_v41 m c]
    refine (PadTail.pad_rows_apply _ _ pads_S800000x64_S800768x64_07680_000 h_S_ ⟨e, h1⟩ k).trans ?_
    rw [dif_neg (by show ¬e < 800000; omega), PrefixAgree.W_c10 m c]
    show (((0#32 : BitVec 32).toInt : ℝ) : EReal) = 0
    simp
  · rw [dif_neg h1]

/-- The word the body forms for node `n` is the word of `n`. -/
theorem nodeWord_of (n : Fin 50000) :
    Body.nodeWord (n.val / 2048) ⟨n.val % 2048, Nat.mod_lt _ (by decide)⟩ = BitVec.ofNat 32 n.val := by
  have hq : n.val / 2048 < 25 := by have := n.isLt; omega
  rw [Body.nodeWord_eq (n.val / 2048) hq]
  exact congrArg (BitVec.ofNat 32) (Nat.div_add_mod' n.val 2048)

/-- The kernel's aggregate of node `n`: zero plus the messages of the true edges whose target word, read signed, is `n`. -/
theorem aggK_eq (n : Fin 50000) (k : Fin 64) :
    Out.aggK m c n.val k
      = 0 + ∑ e ∈ Finset.univ.filter (fun e : Fin 800000 => (colK m c (ix1 e)).toInt = (n.val : Int)),
          msgK m c (ix2 e k) := by
  unfold Out.aggK
  refine congrArg (0 + ·) ?_
  rw [nodeWord_of n]
  refine (EdgeSums.blocks_selector_sum 391 2048 800000 (by norm_num) (Acc.cpN m c) (Acc.mpN m c k)
    (fun e => colK m c (ix1 e)) (fun e => msgK m c (ix2 e k)) (cpN_eq m c) (mpN_eq m c k) (mpN_pad m c k)
    (BitVec.ofNat 32 n.val)).trans ?_
  refine Finset.sum_congr (Finset.filter_congr fun e _ => ?_) fun _ _ => rfl
  exact EdgeSums.word_eq_iff_toInt n.val (by have := n.isLt; omega) _

/-- The kernel's result at `(n, c')`, over the weight and the bias as launched. -/
theorem result_apply (n : Fin 50000) (c' : Fin 64) :
    Out.result m c (ix2 n c')
      = max (∑ k : Fin 64, Out.aggK m c n.val k * (m ((c : Thread nD τ).loc main_arg2) : S64x64.Idx → Ideal .f32) (ix2 k c')
          + (m ((c : Thread nD τ).loc main_arg3) : S64.Idx → Ideal .f32) (ix1 c')) 0 := by
  have hn : n.val < 51200 := by have := n.isLt; omega
  refine (slice2_axis0_apply 0 (Out.Gpad m c) slices_S51200x64_S50000x64_0_0 n c' ⟨n.val, hn⟩ (by simp)).trans ?_
  show Out.gOut m c n.val c' = _
  unfold Out.gOut
  rw [Entry.V_v44 m c, Entry.V_v45 m c, PrefixAgree.W_arg2 m c, PrefixAgree.W_arg3 m c]
  refine congrArg₂ max (congrArg₂ (· + ·) (Finset.sum_congr rfl fun k _ => rfl) ?_) rfl
  exact shapeCast_a_1a_apply _ shapeCasts_S64_S1x64 (0 : Fin 1) c'

end Cert.Bridge

end
-- ==== Proof.Final.lean ====
/-
  The two programs end with the same result.

  From memories that agree on the four arguments both programs form the same edge messages `msg` and target words
  `col`.  The reference's result is `max (Σ_k agg (n, k) * W (k, c) + b c, 0)` with
  `agg (n, k) = 0 + Σ_{e : col e = n} msg (e, k)`, a scatter-sum.  The kernel's is the same expression with its
  aggregate formed as a product with a 0/1 matrix, block of edges by block of edges, over a list padded with zero
  messages — the same sum of the same terms in another order, which on the extended reals is the same number whether
  or not the terms are finite.
-/
import proofs.«109898_j51994874085832_1_alg».proof.Proof.Bridge
import proofs.«109898_j51994874085832_1_alg».proof.Proof.RefResult

noncomputable section

open scoped BigOperators

namespace Cert.Final

open Idealize.ShloMosaic Idealize.ShloMosaic.TcCoe Idealize.SL.Sem Idealize.ShloMosaic.StableHlo
open Idealize.ShloMosaic.ValueIdx Cert.PrefixAgree

/-- The two results are equal, from memories that agree on the arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3)) :
    (refAfter m' c (Proc.devRef .tc Cert.ReferenceIdeal.main_v47) : Cert.ReferenceIdeal.S50000x64.Idx → Ideal .f32) = Cert.KernelIdeal.Out.result m c := by
  rw [Cert.RefResult.res_eq m' c]
  funext i
  obtain ⟨n, c', rfl⟩ : ∃ (n : Fin 50000) (c' : Fin 64), i = ix2 n c' := ⟨i 0, i 1, eq_ix2 i⟩
  rw [Cert.ReferenceIdeal.Tail.tail_apply, Cert.Bridge.result_apply m c n c']
  refine congrArg₂ max (congrArg₂ (· + ·) (Finset.sum_congr rfl fun k _ => ?_) ?_) rfl
  · rw [Cert.ReferenceIdeal.Tail.agg_apply, Cert.Bridge.aggK_eq m c n k, ← msg_agree m m' c h0 h1, ← col_agree m m' c h1, h2]
  · rw [h3]

end Cert.Final

end
-- ==== Proof.lean ====
/-
  A graph-convolution layer: the kernel and its reference compute the same extended reals.

  Both programs take node features `x` [50000, 64], an edge list [2, 800000] of source and target words, a weight
  [64, 64] and a bias [64].  Both form, by the same host operations, the in-degree `deg` of every node, the factor
  `(deg + 1e-16) ^ (-1/2)` where `deg > 0` (and `0` elsewhere), the norm of every edge as the product of the factors at
  its two ends, and the message of every edge as its norm times its source's features.  They differ in how the
  messages are summed into their target nodes.  The reference scatters them: `agg (n, k)` is `0` plus the sum of
  `msg (e, k)` over the edges `e` whose target word, read signed, is `n`; a word that names no node is dropped.  The
  kernel pads the edge list to 391 blocks of 2048 with zero messages, and for each block of 2048 nodes runs through
  the edge blocks, adding to an accumulator the product of the 0/1 matrix `[node = target]` with the block's messages;
  at the last edge block it stores `max (acc · W + b, 0)`, and the host keeps the first 50000 rows.  The reference
  ends with the same `max (agg · W + b, 0)`.

  At the extended reals every change of float format is the identity, a selector times a message is the message or
  zero, a padded edge contributes `selector * 0 = 0`, and a sum taken block by block is the sum: only commutativity
  and associativity of `+` and `1 * x = x`, `0 * x = 0`, `x * 0 = 0` are used, so the equality holds for every input
  and the precondition is not needed for it.  The three programs' frames are the generated frame certificates (the
  reference's is its run with the result dropped); the kernel's idealization rewrote nothing, so `preserves` is
  `True`.
-/
import proofs.«109898_j51994874085832_1_alg».proof.Defs
import proofs.«109898_j51994874085832_1_alg».proof.Proof.Gen.Kernel
import proofs.«109898_j51994874085832_1_alg».proof.Proof.Gen.Kernel.Frame
import proofs.«109898_j51994874085832_1_alg».proof.Proof.Gen.KernelIdeal
import proofs.«109898_j51994874085832_1_alg».proof.Proof.Gen.KernelIdeal.Frame
import proofs.«109898_j51994874085832_1_alg».proof.Proof.Gen.ReferenceIdeal
import proofs.«109898_j51994874085832_1_alg».proof.Proof.Gen.Pre_finite_inputs
import proofs.«109898_j51994874085832_1_alg».proof.Proof.KernelOut
import proofs.«109898_j51994874085832_1_alg».proof.Proof.ReferenceRun
import proofs.«109898_j51994874085832_1_alg».proof.Proof.RefResult
import proofs.«109898_j51994874085832_1_alg».proof.Proof.Final
import Idealize.ShloMosaic.Adequacy
import Idealize.ShloMosaic.Init

noncomputable section

namespace Cert.Proof

open Idealize.ShloMosaic Idealize.SL.Sem

/-- The kernel as printed runs, faults nowhere and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments the idealized kernel and the reference both run and end with the same
    result: the kernel's result array at its function of the arguments, the reference's at the same function. -/
theorem algebraic : Cert.algebraic_KernelIdeal_ReferenceIdeal := by
  intro m ρ m' ρ' _ hagree
  refine ⟨fun c => Cert.KernelIdeal.Out.result m c, Cert.KernelIdeal.Out.run m ρ, ?_⟩
  refine (θ_run Cert.ReferenceIdeal.defs _ _).mono (fun _ h c =>
    ⟨(h c Cert.ReferenceIdeal.main_v47).trans ?_,
      (h c Cert.ReferenceIdeal.main_arg0).trans (Cert.RefResult.refAfter_arg0 m' c),
      (h c Cert.ReferenceIdeal.main_arg1).trans (Cert.RefResult.refAfter_arg1 m' c),
      (h c Cert.ReferenceIdeal.main_arg2).trans (Cert.RefResult.refAfter_arg2 m' c),
      (h c Cert.ReferenceIdeal.main_arg3).trans (Cert.RefResult.refAfter_arg3 m' c)⟩) (Cert.RefResult.ref_run m' ρ')
  exact Cert.Final.result_eq m m' c (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
